-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S50000x128 : Shape := ⟨2, ![50000, 128]⟩
abbrev S2x800000 : Shape := ⟨2, ![2, 800000]⟩
abbrev S4096x20 : Shape := ⟨2, ![4096, 20]⟩
abbrev S128x128 : Shape := ⟨2, ![128, 128]⟩
abbrev S128 : Shape := ⟨1, ![128]⟩
abbrev S896x448 : Shape := ⟨2, ![896, 448]⟩
abbrev S448 : Shape := ⟨1, ![448]⟩
abbrev S448x1 : Shape := ⟨2, ![448, 1]⟩
abbrev S1 : Shape := ⟨1, ![1]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S896x448 : S_.BroadcastsInDim S896x448 (![] : Fin 0 → Fin S896x448.rank)
  reducesTo_S896x448_S_d0_1 : S896x448.ReducesTo [0, 1] S_
  bcast_S_S448 : S_.BroadcastsInDim S448 (![] : Fin 0 → Fin S448.rank)
  reducesTo_S448_S_d0 : S448.ReducesTo [0] S_
  bcast_S_S448x1 : S_.BroadcastsInDim S448x1 (![] : Fin 0 → Fin S448x1.rank)
  reducesTo_S448x1_S_d0_1 : S448x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S448 .f32) (main_arg10 : FVec F S448x1 .f32) (main_arg11 : FVec F S1 .f32) (main_v33 : IVec S_ 1) : IVec S_ 1 :=
  let main_v34 : FVec F S448 .f32 := Host.absf main_arg9
  let main_cst_12 : FVec F S_ .f32 := constant S_ .f32 0x7F800000#32
  let main_v35 : FVec F S448 .f32 := broadcastInDim S448 ![] bcast_S_S448 main_cst_12
  let main_v36 : IVec S448 1 := cmpf .olt main_v34 main_v35
  let main_c_13 : IVec S_ 1 := constantI S_ 1 1#1
  let main_v37 : IVec S_ 1 := (fun x v => Host.reduce IntOp.andi x v reducesTo_S448_S_d0 h_S_) main_v36 main_c_13
  let main_v38 : IVec S_ 1 := andi main_v33 main_v37
  let main_v39 : FVec F S448x1 .f32 := Host.absf main_arg10
  let main_cst_14 : FVec F S_ .f32 := constant S_ .f32 0x7F800000#32
  let main_v40 : FVec F S448x1 .f32 := broadcastInDim S448x1 ![] bcast_S_S448x1 main_cst_14
  let main_v41 : IVec S448x1 1 := cmpf .olt main_v39 main_v40
  let main_c_15 : IVec S_ 1 := constantI S_ 1 1#1
  let main_v42 : IVec S_ 1 := (fun x v => Host.reduce IntOp.andi x v reducesTo_S448x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S896x448 .f32) (main_arg9 : FVec F S448 .f32) (main_arg10 : FVec F S448x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S896x448 .f32 := Host.absf main_arg8
  let main_cst_10 : FVec F S_ .f32 := constant S_ .f32 0x7F800000#32
  let main_v30 : FVec F S896x448 .f32 := broadcastInDim S896x448 ![] bcast_S_S896x448 main_cst_10
  let main_v31 : IVec S896x448 1 := cmpf .olt main_v29 main_v30
  let main_c_11 : IVec S_ 1 := constantI S_ 1 1#1
  let main_v32 : IVec S_ 1 := (fun x v => Host.reduce IntOp.andi x v reducesTo_S896x448_S_d0_1 h_S_) main_v31 main_c_11
  let main_v33 : IVec S_ 1 := andi main_v28 main_v32
  fn_part2 (F := F) main_arg9 main_arg10 main_arg11 main_v33

def fn {F : FTy → Type} [FloatOps F] (main_arg0 : FVec F S4096x768 .f32) (main_arg1 : FVec F S50000x128 .f32) (main_arg2 : IVec S2x800000 32) (main_arg3 : IVec S4096x20 32) (main_arg4 : FVec F S128x128 .f32) (main_arg5 : FVec F S128 .f32) (main_arg6 : FVec F S128x128 .f32) (main_arg7 : FVec F S128 .f32) (main_arg8 : FVec F S896x448 .f32) (main_arg9 : FVec F S448 .f32) (main_arg10 : FVec F S448x1 .f32) (main_arg11 : FVec F S1 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S4096x768 : Shape := ⟨2, ![4096, 768]⟩
abbrev S50000x128 : Shape := ⟨2, ![50000, 128]⟩
abbrev S2x800000 : Shape := ⟨2, ![2, 800000]⟩
abbrev S4096x20 : Shape := ⟨2, ![4096, 20]⟩
abbrev S128x128 : Shape := ⟨2, ![128, 128]⟩
abbrev S128 : Shape := ⟨1, ![128]⟩
abbrev S896x448 : Shape := ⟨2, ![896, 448]⟩
abbrev S448 : Shape := ⟨1, ![448]⟩
abbrev S448x1 : Shape := ⟨2, ![448, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S4096x20x1 : Shape := ⟨3, ![4096, 20, 1]⟩
abbrev S4096x20x128 : Shape := ⟨3, ![4096, 20, 128]⟩
abbrev S4096 : Shape := ⟨1, ![4096]⟩
abbrev S4096x1 : Shape := ⟨2, ![4096, 1]⟩
abbrev S768x448 : Shape := ⟨2, ![768, 448]⟩
abbrev S128x448 : Shape := ⟨2, ![128, 448]⟩
abbrev S1x448 : Shape := ⟨2, ![1, 448]⟩
abbrev S1x1 : Shape := ⟨2, ![1, 1]⟩
abbrev S512x20x128 : Shape := ⟨3, ![512, 20, 128]⟩
abbrev S512x1 : Shape := ⟨2, ![512, 1]⟩
abbrev S512x768 : Shape := ⟨2, ![512, 768]⟩
abbrev S512x128 : Shape := ⟨2, ![512, 128]⟩
abbrev S512x448 : Shape := ⟨2, ![512, 448]⟩

abbrev nBuf : Space → Nat
  | .hbm => 136
  | .vmem => 13
  | .smem => 0
  | _ => 0

abbrev hbmTy0_0 (i : Nat) : BufTy := match i % 128 with
  | 0 => ⟨S4096x768, .f32⟩
  | 1 => ⟨S50000x128, .f32⟩
  | 2 => ⟨S2x800000, .i32⟩
  | 3 => ⟨S4096x20, .i32⟩
  | 4 => ⟨S128x128, .f32⟩
  | 5 => ⟨S128, .f32⟩
  | 6 => ⟨S128x128, .f32⟩
  | 7 => ⟨S128, .f32⟩
  | 8 => ⟨S896x448, .f32⟩
  | 9 => ⟨S448, .f32⟩
  | 10 => ⟨S448x1, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .i32⟩
  | 99 => ⟨S4096x20, .i32⟩
  | 100 => ⟨S4096x20, .i1⟩
  | 101 => ⟨S_, .i32⟩
  | 102 => ⟨S_, .i32⟩
  | 103 => ⟨S4096x20, .i32⟩
  | 104 => ⟨S4096x20, .i32⟩
  | 105 => ⟨S_, .i32⟩
  | 106 => ⟨S4096x20, .i32⟩
  | 107 => ⟨S4096x20, .i1⟩
  | 108 => ⟨S_, .i32⟩
  | 109 => ⟨S4096x20, .i32⟩
  | 110 => ⟨S4096x20, .i32⟩
  | 111 => ⟨S4096x20, .i32⟩
  | 112 => ⟨S4096x20x1, .i32⟩
  | 113 => ⟨S4096x20x128, .f32⟩
  | 114 => ⟨S4096x20x1, .i1⟩
  | 115 => ⟨S_, .f32⟩
  | 116 => ⟨S_, .f32⟩
  | 117 => ⟨S4096x20x128, .i1⟩
  | 118 => ⟨S4096x20x128, .f32⟩
  | 119 => ⟨S4096x20x128, .f32⟩
  | 120 => ⟨S4096x20, .i32⟩
  | 121 => ⟨S_, .i32⟩
  | 122 => ⟨S4096, .i32⟩
  | 123 => ⟨S4096x1, .i32⟩
  | 124 => ⟨S4096x1, .f32⟩
  | 125 => ⟨S_, .f32⟩
  | 126 => ⟨S4096x1, .f32⟩
  | 127 => ⟨S4096x1, .f32⟩
  | _ => ⟨S4096x768, .f32⟩

abbrev hbmTy0_1 (i : Nat) : BufTy := match i % 128 with
  | 0 => ⟨S768x448, .f32⟩
  | 1 => ⟨S768x448, .bf16⟩
  | 2 => ⟨S128x448, .f32⟩
  | 3 => ⟨S128x448, .bf16⟩
  | 4 => ⟨S1x448, .f32⟩
  | 5 => ⟨S448x1, .bf16⟩
  | 6 => ⟨S1x1, .f32⟩
  | 7 => ⟨S4096x1, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x20x128, .f32⟩
  | .local _ .vmem, ⟨1, _⟩ => ⟨S512x20x128, .f32⟩
  | .local _ .vmem, ⟨2, _⟩ => ⟨S512x1, .f32⟩
  | .local _ .vmem, ⟨3, _⟩ => ⟨S512x1, .f32⟩
  | .local _ .vmem, ⟨4, _⟩ => ⟨S512x768, .f32⟩
  | .local _ .vmem, ⟨5, _⟩ => ⟨S512x768, .f32⟩
  | .local _ .vmem, ⟨6, _⟩ => ⟨S768x448, .bf16⟩
  | .local _ .vmem, ⟨7, _⟩ => ⟨S128x448, .bf16⟩
  | .local _ .vmem, ⟨8, _⟩ => ⟨S1x448, .f32⟩
  | .local _ .vmem, ⟨9, _⟩ => ⟨S448x1, .bf16⟩
  | .local _ .vmem, ⟨10, _⟩ => ⟨S1x1, .f32⟩
  | .local _ .vmem, ⟨11, _⟩ => ⟨S512x1, .f32⟩
  | .local _ .vmem, ⟨12, _⟩ => ⟨S512x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_call3_v0 : Ref sig .tc := ⟨.hbm, 102, rfl⟩
abbrev main_call3_v1 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_18 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x20x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x448 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x448 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S448x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S4096x20x1_S4096x20x128_0_1_2 : S4096x20x1.BroadcastsInDim S4096x20x128 (![0, 1, 2] : Fin 3 → Fin S4096x20x128.rank)
  bcast_S_S4096x20x128 : S_.BroadcastsInDim S4096x20x128 (![] : Fin 0 → Fin S4096x20x128.rank)
  natLt_1_32 : 1 < 32
  reducesTo_S4096x20_S4096_d1 : S4096x20.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  slices_S896x448_S768x448_0_0 : S896x448.Slices ![0, 0] S768x448
  bitsLt_bf16_f32 : FTy.bits .bf16 < FTy.bits .f32
  slices_S896x448_S128x448_768_0 : S896x448.Slices ![768, 0] S128x448
  shapeCasts_S448_S1x448 : S448.ShapeCasts S1x448
  shapeCasts_S1_S1x1 : S1.ShapeCasts S1x1
  inb_S512x20x128_S512x20x128_0_0_0 : ∀ a, (![0, 0, 0] : Fin 3 → Nat) a + S512x20x128.size a ≤ S512x20x128.size a
  h_S512x20x128 : 0 < S512x20x128.numel
  shapeCasts_S512x20x128_S512x20x128 : S512x20x128.ShapeCasts S512x20x128
  reduces_S512x20x128_S512x128 : S512x20x128.Reduces [1] S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S512x768_S512x768_0_0 : ∀ a, (![0, 0] : Fin 2 → Nat) a + S512x768.size a ≤ S512x768.size a
  h_S512x768 : 0 < S512x768.numel
  inb_S768x448_S768x448_0_0 : ∀ a, (![0, 0] : Fin 2 → Nat) a + S768x448.size a ≤ S768x448.size a
  h_S768x448 : 0 < S768x448.numel
  shapeCasts_S768x448_S768x448 : S768x448.ShapeCasts S768x448
  inb_S128x448_S128x448_0_0 : ∀ a, (![0, 0] : Fin 2 → Nat) a + S128x448.size a ≤ S128x448.size a
  h_S128x448 : 0 < S128x448.numel
  shapeCasts_S128x448_S128x448 : S128x448.ShapeCasts S128x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S512x448 : S1x448.Broadcasts S512x448
  inb_S448x1_S448x1_0_0 : ∀ a, (![0, 0] : Fin 2 → Nat) a + S448x1.size a ≤ S448x1.size a
  h_S448x1 : 0 < S448x1.numel
  shapeCasts_S448x1_S448x1 : S448x1.ShapeCasts S448x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x20x1_S4096x20x128_2_0_n_n_0_2_1128_wf : GatherDims.WF S50000x128 S4096x20x1 S4096x20x128 [2] [0] [] [0] [] 2 ![1, 128]
  dot_S512x768_S768x448_S512x448_1_0_0_1_n_n_wf : DotDims.WF S512x768 S768x448 S512x448 [1] [0] [0] [1] [] []
  dot_S512x128_S128x448_S512x448_1_0_0_1_n_n_wf : DotDims.WF S512x128 S128x448 S512x448 [1] [0] [0] [1] [] []
  dot_S512x448_S448x1_S512x1_1_0_0_1_n_n_wf : DotDims.WF S512x448 S448x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x20x128.size a ≤ S4096x20x128.size a
  hwx0_0 : ∀ i : grid0.Coords, EltTy.bits .f32 = 32 ∨ (Rect.block (s := S4096x20x128) S512x20x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S4096x768.size a
  hwx0_2 : ∀ i : grid0.Coords, EltTy.bits .f32 = 32 ∨ (Rect.block (s := S4096x768) S512x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x448.size a ≤ S768x448.size a
  hwx0_3 : ∀ i : grid0.Coords, EltTy.bits .bf16 = 32 ∨ (Rect.block (s := S768x448) S768x448.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x448.size a ≤ S128x448.size a
  hwx0_4 : ∀ i : grid0.Coords, EltTy.bits .bf16 = 32 ∨ (Rect.block (s := S128x448) S128x448.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x448.size a ≤ S1x448.size a
  hwx0_5 : ∀ i : grid0.Coords, EltTy.bits .f32 = 32 ∨ (Rect.block (s := S1x448) S1x448.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S448x1.size a ≤ S448x1.size a
  hwx0_6 : ∀ i : grid0.Coords, EltTy.bits .bf16 = 32 ∨ (Rect.block (s := S448x1) S448x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x20x1_S4096x20x128_2_0_n_n_0_2_1128 : GatherDims S50000x128 S4096x20x1 S4096x20x128 where
  offsetDims := [2]
  collapsedSliceDims := [0]
  operandBatchingDims := []
  startIndicesBatchingDims := []
  startIndexMap := [0]
  indexVectorDim := 2
  sliceSizes := ![1, 128]
  wf := gather_S50000x128_S4096x20x1_S4096x20x128_2_0_n_n_0_2_1128_wf
def dot_S512x768_S768x448_S512x448_1_0_0_1_n_n : DotDims S512x768 S768x448 S512x448 where
  lhsContracting := [1]
  rhsContracting := [0]
  lhsNonContracting := [0]
  rhsNonContracting := [1]
  lhsBatch := []
  rhsBatch := []
  wf := dot_S512x768_S768x448_S512x448_1_0_0_1_n_n_wf
def dot_S512x128_S128x448_S512x448_1_0_0_1_n_n : DotDims S512x128 S128x448 S512x448 where
  lhsContracting := [1]
  rhsContracting := [0]
  lhsNonContracting := [0]
  rhsNonContracting := [1]
  lhsBatch := []
  rhsBatch := []
  wf := dot_S512x128_S128x448_S512x448_1_0_0_1_n_n_wf
def dot_S512x448_S448x1_S512x1_1_0_0_1_n_n : DotDims S512x448 S448x1 S512x1 where
  lhsContracting := [1]
  rhsContracting := [0]
  lhsNonContracting := [0]
  rhsNonContracting := [1]
  lhsBatch := []
  rhsBatch := []
  wf := dot_S512x448_S448x1_S512x1_1_0_0_1_n_n_wf

abbrev win0_0 : Pipeline.Window sig grid0 :=
  Pipeline.Window.ofSpec (Memref.whole main_v77) S512x20x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S768x448.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87) S128x448.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v88) S1x448.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S448x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v90) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v91) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x768 : Shape := ⟨2, ![4096, 768]⟩
abbrev S50000x128 : Shape := ⟨2, ![50000, 128]⟩
abbrev S2x800000 : Shape := ⟨2, ![2, 800000]⟩
abbrev S4096x20 : Shape := ⟨2, ![4096, 20]⟩
abbrev S128x128 : Shape := ⟨2, ![128, 128]⟩
abbrev S128 : Shape := ⟨1, ![128]⟩
abbrev S896x448 : Shape := ⟨2, ![896, 448]⟩
abbrev S448 : Shape := ⟨1, ![448]⟩
abbrev S448x1 : Shape := ⟨2, ![448, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S4096x20x1 : Shape := ⟨3, ![4096, 20, 1]⟩
abbrev S4096x20x128 : Shape := ⟨3, ![4096, 20, 128]⟩
abbrev S4096 : Shape := ⟨1, ![4096]⟩
abbrev S4096x1 : Shape := ⟨2, ![4096, 1]⟩
abbrev S4096x128 : Shape := ⟨2, ![4096, 128]⟩
abbrev S4096x896 : Shape := ⟨2, ![4096, 896]⟩
abbrev S4096x448 : Shape := ⟨2, ![4096, 448]⟩
abbrev S1x448 : Shape := ⟨2, ![1, 448]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S4096x768, .f32⟩
  | 1 => ⟨S50000x128, .f32⟩
  | 2 => ⟨S2x800000, .i32⟩
  | 3 => ⟨S4096x20, .i32⟩
  | 4 => ⟨S128x128, .f32⟩
  | 5 => ⟨S128, .f32⟩
  | 6 => ⟨S128x128, .f32⟩
  | 7 => ⟨S128, .f32⟩
  | 8 => ⟨S896x448, .f32⟩
  | 9 => ⟨S448, .f32⟩
  | 10 => ⟨S448x1, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .i32⟩
  | 99 => ⟨S4096x20, .i32⟩
  | 100 => ⟨S4096x20, .i1⟩
  | 101 => ⟨S_, .i32⟩
  | 102 => ⟨S_, .i32⟩
  | 103 => ⟨S4096x20, .i32⟩
  | 104 => ⟨S4096x20, .i32⟩
  | 105 => ⟨S_, .i32⟩
  | 106 => ⟨S4096x20, .i32⟩
  | 107 => ⟨S4096x20, .i1⟩
  | 108 => ⟨S_, .i32⟩
  | 109 => ⟨S4096x20, .i32⟩
  | 110 => ⟨S4096x20, .i32⟩
  | 111 => ⟨S4096x20, .i32⟩
  | 112 => ⟨S4096x20x1, .i32⟩
  | 113 => ⟨S4096x20x128, .f32⟩
  | 114 => ⟨S4096x20x1, .i1⟩
  | 115 => ⟨S4096x20x1, .f32⟩
  | 116 => ⟨S4096x20x128, .f32⟩
  | 117 => ⟨S4096x20x128, .f32⟩
  | 118 => ⟨S4096x20, .i32⟩
  | 119 => ⟨S_, .i32⟩
  | 120 => ⟨S4096, .i32⟩
  | 121 => ⟨S4096x1, .i32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096x128, .f32⟩
  | _ => ⟨S4096x768, .f32⟩

abbrev hbmTy0_1 (i : Nat) : BufTy := match i % 128 with
  | 0 => ⟨S4096x128, .f32⟩
  | 1 => ⟨S4096x128, .f32⟩
  | 2 => ⟨S4096x896, .f32⟩
  | 3 => ⟨S4096x448, .f32⟩
  | 4 => ⟨S1x448, .f32⟩
  | 5 => ⟨S4096x448, .f32⟩
  | 6 => ⟨S4096x448, .f32⟩
  | 7 => ⟨S_, .f32⟩
  | 8 => ⟨S4096x448, .f32⟩
  | 9 => ⟨S4096x448, .f32⟩
  | 10 => ⟨S4096x1, .f32⟩
  | 11 => ⟨S1x1, .f32⟩
  | 12 => ⟨S4096x1, .f32⟩
  | 13 => ⟨S4096x1, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_call3_v0 : Ref sig .tc := ⟨.hbm, 102, rfl⟩
abbrev main_call3_v1 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call4_cst : Ref sig .tc := ⟨.hbm, 135, rfl⟩
abbrev main_call4_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_19 : Ref sig .tc := ⟨.hbm, 144, rfl⟩
abbrev main_v101 : Ref sig .tc := ⟨.hbm, 145, rfl⟩
abbrev main_v102 : Ref sig .tc := ⟨.hbm, 146, rfl⟩
abbrev main_cst_20 : Ref sig .tc := ⟨.hbm, 147, rfl⟩
abbrev main_v103 : Ref sig .tc := ⟨.hbm, 148, rfl⟩
abbrev main_v104 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S4096x20x1_S4096x20x128_0_1_2 : S4096x20x1.BroadcastsInDim S4096x20x128 (![0, 1, 2] : Fin 3 → Fin S4096x20x128.rank)
  natLt_1_32 : 1 < 32
  reducesTo_S4096x20_S4096_d1 : S4096x20.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x20x128_S4096x128_d1 : S4096x20x128.ReducesTo [1] S4096x128
  bcast_S4096x1_S4096x128_0_1 : S4096x1.BroadcastsInDim S4096x128 (![0, 1] : Fin 2 → Fin S4096x128.rank)
  concatenates_S4096x768_S4096x128_S4096x896_d1 : Shape.Concatenates [S4096x768, S4096x128] S4096x896 1
  bcast_S448_S1x448_1 : S448.BroadcastsInDim S1x448 (![1] : Fin 1 → Fin S1x448.rank)
  bcast_S1x448_S4096x448_0_1 : S1x448.BroadcastsInDim S4096x448 (![0, 1] : Fin 2 → Fin S4096x448.rank)
  bcast_S_S4096x448 : S_.BroadcastsInDim S4096x448 (![] : Fin 0 → Fin S4096x448.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x20x1_S4096x20x128_2_0_n_n_0_2_1128_wf : GatherDims.WF S50000x128 S4096x20x1 S4096x20x128 [2] [0] [] [0] [] 2 ![1, 128]
  dot_S4096x896_S896x448_S4096x448_1_0_0_1_n_n_wf : DotDims.WF S4096x896 S896x448 S4096x448 [1] [0] [0] [1] [] []
  dot_S4096x448_S448x1_S4096x1_1_0_0_1_n_n_wf : DotDims.WF S4096x448 S448x1 S4096x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x20x1_S4096x20x128_2_0_n_n_0_2_1128 : GatherDims S50000x128 S4096x20x1 S4096x20x128 where
  offsetDims := [2]
  collapsedSliceDims := [0]
  operandBatchingDims := []
  startIndicesBatchingDims := []
  startIndexMap := [0]
  indexVectorDim := 2
  sliceSizes := ![1, 128]
  wf := gather_S50000x128_S4096x20x1_S4096x20x128_2_0_n_n_0_2_1128_wf
def dot_S4096x896_S896x448_S4096x448_1_0_0_1_n_n : DotDims S4096x896 S896x448 S4096x448 where
  lhsContracting := [1]
  rhsContracting := [0]
  lhsNonContracting := [0]
  rhsNonContracting := [1]
  lhsBatch := []
  rhsBatch := []
  wf := dot_S4096x896_S896x448_S4096x448_1_0_0_1_n_n_wf
def dot_S4096x448_S448x1_S4096x1_1_0_0_1_n_n : DotDims S4096x448 S448x1 S4096x1 where
  lhsContracting := [1]
  rhsContracting := [0]
  lhsNonContracting := [0]
  rhsNonContracting := [1]
  lhsBatch := []
  rhsBatch := []
  wf := dot_S4096x448_S448x1_S4096x1_1_0_0_1_n_n_wf

class Facts : Prop extends Facts₀ where

variable [Facts]
-- ==== Proof.RefRun.lean ====
/-
  The reference program's run, read stage by stage.

  The program is a straight line of 138 host operations. It is cut here into eleven consecutive pieces; after each piece,
  every buffer a later operation reads holds the stage of the same name (the value the operation that writes it computes,
  as a function of the program's arguments), and a buffer a piece does not write keeps what it held. The last piece
  leaves the result buffer at the final stage; the arguments are written by no operation.
-/
import proofs.«124949_j71605694759285_2_alg».proof.Proof.RefReadP
import Idealize.ShloMosaic.Lib.StableHlo.Run
import Idealize.ShloMosaic.Lib.Pipeline.Frame

set_option maxRecDepth 16384
set_option maxHeartbeats 4000000

noncomputable section

namespace Cert.ReferenceIdeal.Staged

open Cert.ReferenceIdeal Cert.ReferenceIdeal.Gen Idealize.ShloMosaic Idealize.ShloMosaic.TcCoe Idealize.SL.Sem
open Idealize.ShloMosaic.StableHlo
open Cert.ReferenceIdeal.ReadP Cert.ReferenceIdeal.ValueP

section Pieces

variable {F : FTy → Type} [FloatOps F]

/-- Operations 1 … 18 of the program. -/
abbrev P0 : List (HloOp τ sig (Elt F)) :=
  [ nullary main_v0 (iotaInDim S50000 32 0),
    unary main_arg2 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg2 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 19 … 21 of the program. -/
abbrev P1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 … 60 of the program. -/
abbrev P2 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg1 main_arg4 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- Operations 61 … 63 of the program. -/
abbrev P3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 … 83 of the program. -/
abbrev P4 : List (HloOp τ sig (Elt F)) :=
  [ binary main_v47 main_arg6 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

/-- Operations 84 … 86 of the program. -/
abbrev P5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- Operations 87 … 93 of the program. -/
abbrev P6 : List (HloOp τ sig (Elt F)) :=
  [ nullary main_c_12 (constantI S_ 32 0#32),
    unary main_c_12 main_v66 (broadcastInDim S4096x20 ![] bcast_S_S4096x20 : (⟨S_, .i32⟩ : BufTy).Contents (Elt F) → (⟨S4096x20, .i32⟩ : BufTy).Contents (Elt F)),
    binary main_arg3 main_v66 main_v67 (cmpi .sge : (⟨S4096x20, .i32⟩ : BufTy).Contents (Elt F) → (⟨S4096x20, .i32⟩ : BufTy).Contents (Elt F) → (⟨S4096x20, .i1⟩ : BufTy).Contents (Elt F)),
    nullary main_c_13 (constantI S_ 32 0#32),
    TRef.unary (TRef.of (T := ⟨S_, .i32⟩) main_c_13) (TRef.of (T := ⟨S_, .i32⟩) main_call3_v0) id,
    TRef.unary (TRef.of (T := ⟨S_, .i32⟩) main_call3_v0) (TRef.of (T := ⟨S4096x20, .i32⟩) main_call3_v1) (broadcastInDim S4096x20 ![] bcast_S_S4096x20),
    TRef.ternary (TRef.of (T := ⟨S4096x20, .i1⟩) main_v67) (TRef.of (T := ⟨S4096x20, .i32⟩) main_arg3) (TRef.of (T := ⟨S4096x20, .i32⟩) main_call3_v1) (TRef.of (T := ⟨S4096x20, .i32⟩) main_v68) select ]

/-- Operations 94 … 106 of the program. -/
abbrev P7 : List (HloOp τ sig (Elt F)) :=
  [ nullary main_c_14 (constantI S_ 32 0#32),
    unary main_c_14 main_v69 (broadcastInDim S4096x20 ![] bcast_S_S4096x20 : (⟨S_, .i32⟩ : BufTy).Contents (Elt F) → (⟨S4096x20, .i32⟩ : BufTy).Contents (Elt F)),
    binary main_v68 main_v69 main_v70 (cmpi .slt : (⟨S4096x20, .i32⟩ : BufTy).Contents (Elt F) → (⟨S4096x20, .i32⟩ : BufTy).Contents (Elt F) → (⟨S4096x20, .i1⟩ : BufTy).Contents (Elt F)),
    nullary main_c_15 (constantI S_ 32 50000#32),
    unary main_c_15 main_v71 (broadcastInDim S4096x20 ![] bcast_S_S4096x20 : (⟨S_, .i32⟩ : BufTy).Contents (Elt F) → (⟨S4096x20, .i32⟩ : BufTy).Contents (Elt F)),
    binary main_v68 main_v71 main_v72 (addi : (⟨S4096x20, .i32⟩ : BufTy).Contents (Elt F) → (⟨S4096x20, .i32⟩ : BufTy).Contents (Elt F) → (⟨S4096x20, .i32⟩ : BufTy).Contents (Elt F)),
    ternary main_v70 main_v72 main_v68 main_v73 (select : (⟨S4096x20, .i1⟩ : BufTy).Contents (Elt F) → (⟨S4096x20, .i32⟩ : BufTy).Contents (Elt F) → (⟨S4096x20, .i32⟩ : BufTy).Contents (Elt F) → (⟨S4096x20, .i32⟩ : BufTy).Contents (Elt F)),
    unary main_v73 main_v74 (broadcastInDim S4096x20x1 ![0, 1] bcast_S4096x20_S4096x20x1_0_1 : (⟨S4096x20, .i32⟩ : BufTy).Contents (Elt F) → (⟨S4096x20x1, .i32⟩ : BufTy).Contents (Elt F)),
    binary main_v65 main_v74 main_v75 ((fun x i => Host.gather gather_S50000x128_S4096x20x1_S4096x20x128_2_0_n_n_0_2_1128 x i) : (⟨S50000x128, .f32⟩ : BufTy).Contents (Elt F) → (⟨S4096x20x1, .i32⟩ : BufTy).Contents (Elt F) → (⟨S4096x20x128, .f32⟩ : BufTy).Contents (Elt F)),
    unary main_v67 main_v76 (broadcastInDim S4096x20x1 ![0, 1] bcast_S4096x20_S4096x20x1_0_1 : (⟨S4096x20, .i1⟩ : BufTy).Contents (Elt F) → (⟨S4096x20x1, .i1⟩ : BufTy).Contents (Elt F)),
    unary main_v76 main_v77 (uitofp .f32 : (⟨S4096x20x1, .i1⟩ : BufTy).Contents (Elt F) → (⟨S4096x20x1, .f32⟩ : BufTy).Contents (Elt F)),
    unary main_v77 main_v78 (broadcastInDim S4096x20x128 ![0, 1, 2] bcast_S4096x20x1_S4096x20x128_0_1_2 : (⟨S4096x20x1, .f32⟩ : BufTy).Contents (Elt F) → (⟨S4096x20x128, .f32⟩ : BufTy).Contents (Elt F)),
    binary main_v75 main_v78 main_v79 (mulf : (⟨S4096x20x128, .f32⟩ : BufTy).Contents (Elt F) → (⟨S4096x20x128, .f32⟩ : BufTy).Contents (Elt F) → (⟨S4096x20x128, .f32⟩ : BufTy).Contents (Elt F)) ]

/-- Operations 107 … 118 of the program. -/
abbrev P8 : List (HloOp τ sig (Elt F)) :=
  [ unary main_v67 main_v80 ((extui 32 · natLt_1_32) : (⟨S4096x20, .i1⟩ : BufTy).Contents (Elt F) → (⟨S4096x20, .i32⟩ : BufTy).Contents (Elt F)),
    nullary main_c_16 (constantI S_ 32 0#32),
    binary main_v80 main_c_16 main_v81 ((fun x v => Host.reduce IntOp.addi x v reducesTo_S4096x20_S4096_d1 h_S_) : (⟨S4096x20, .i32⟩ : BufTy).Contents (Elt F) → (⟨S_, .i32⟩ : BufTy).Contents (Elt F) → (⟨S4096, .i32⟩ : BufTy).Contents (Elt F)),
    unary main_v81 main_v82 (broadcastInDim S4096x1 ![0] bcast_S4096_S4096x1_0 : (⟨S4096, .i32⟩ : BufTy).Contents (Elt F) → (⟨S4096x1, .i32⟩ : BufTy).Contents (Elt F)),
    unary main_v82 main_v83 (sitofp .f32 : (⟨S4096x1, .i32⟩ : BufTy).Contents (Elt F) → (⟨S4096x1, .f32⟩ : BufTy).Contents (Elt F)),
    nullary main_cst_17 (constant S_ .f32 0x3F800000#32),
    unary main_cst_17 main_v84 (broadcastInDim S4096x1 ![] bcast_S_S4096x1 : (⟨S_, .f32⟩ : BufTy).Contents (Elt F) → (⟨S4096x1, .f32⟩ : BufTy).Contents (Elt F)),
    binary main_v83 main_v84 main_v85 (maximumf : (⟨S4096x1, .f32⟩ : BufTy).Contents (Elt F) → (⟨S4096x1, .f32⟩ : BufTy).Contents (Elt F) → (⟨S4096x1, .f32⟩ : BufTy).Contents (Elt F)),
    nullary main_cst_18 (constant S_ .f32 0x00000000#32),
    binary main_v79 main_cst_18 main_v86 ((fun x v => Host.reduceAdd x v reducesTo_S4096x20x128_S4096x128_d1 h_S_) : (⟨S4096x20x128, .f32⟩ : BufTy).Contents (Elt F) → (⟨S_, .f32⟩ : BufTy).Contents (Elt F) → (⟨S4096x128, .f32⟩ : BufTy).Contents (Elt F)),
    unary main_v85 main_v87 (broadcastInDim S4096x128 ![0, 1] bcast_S4096x1_S4096x128_0_1 : (⟨S4096x1, .f32⟩ : BufTy).Contents (Elt F) → (⟨S4096x128, .f32⟩ : BufTy).Contents (Elt F)),
    binary main_v86 main_v87 main_v88 (Host.divf : (⟨S4096x128, .f32⟩ : BufTy).Contents (Elt F) → (⟨S4096x128, .f32⟩ : BufTy).Contents (Elt F) → (⟨S4096x128, .f32⟩ : BufTy).Contents (Elt F)) ]

/-- Operations 119 … 130 of the program. -/
abbrev P9 : List (HloOp τ sig (Elt F)) :=
  [ binary main_arg0 main_v88 main_v89 ((fun a b => concatenate S4096x896 1 [⟨S4096x768, a⟩, ⟨S4096x128, b⟩] concatenates_S4096x768_S4096x128_S4096x896_d1) : (⟨S4096x768, .f32⟩ : BufTy).Contents (Elt F) → (⟨S4096x128, .f32⟩ : BufTy).Contents (Elt F) → (⟨S4096x896, .f32⟩ : BufTy).Contents (Elt F)),
    binary main_v89 main_arg8 main_v90 ((fun l r => Host.dotGeneral dot_S4096x896_S896x448_S4096x448_1_0_0_1_n_n none l r) : (⟨S4096x896, .f32⟩ : BufTy).Contents (Elt F) → (⟨S896x448, .f32⟩ : BufTy).Contents (Elt F) → (⟨S4096x448, .f32⟩ : BufTy).Contents (Elt F)),
    unary main_arg9 main_v91 (broadcastInDim S1x448 ![1] bcast_S448_S1x448_1 : (⟨S448, .f32⟩ : BufTy).Contents (Elt F) → (⟨S1x448, .f32⟩ : BufTy).Contents (Elt F)),
    unary main_v91 main_v92 (broadcastInDim S4096x448 ![0, 1] bcast_S1x448_S4096x448_0_1 : (⟨S1x448, .f32⟩ : BufTy).Contents (Elt F) → (⟨S4096x448, .f32⟩ : BufTy).Contents (Elt F)),
    binary main_v90 main_v92 main_v93 (addf : (⟨S4096x448, .f32⟩ : BufTy).Contents (Elt F) → (⟨S4096x448, .f32⟩ : BufTy).Contents (Elt F) → (⟨S4096x448, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x448, .f32⟩) main_call4_v0) (broadcastInDim S4096x448 ![] bcast_S_S4096x448),
    TRef.binary (TRef.of (T := ⟨S4096x448, .f32⟩) main_v93) (TRef.of (T := ⟨S4096x448, .f32⟩) main_call4_v0) (TRef.of (T := ⟨S4096x448, .f32⟩) main_v94) maximumf,
    binary main_v94 main_arg10 main_v95 ((fun l r => Host.dotGeneral dot_S4096x448_S448x1_S4096x1_1_0_0_1_n_n none l r) : (⟨S4096x448, .f32⟩ : BufTy).Contents (Elt F) → (⟨S448x1, .f32⟩ : BufTy).Contents (Elt F) → (⟨S4096x1, .f32⟩ : BufTy).Contents (Elt F)),
    unary main_arg11 main_v96 (broadcastInDim S1x1 ![1] bcast_S1_S1x1_1 : (⟨S1, .f32⟩ : BufTy).Contents (Elt F) → (⟨S1x1, .f32⟩ : BufTy).Contents (Elt F)),
    unary main_v96 main_v97 (broadcastInDim S4096x1 ![0, 1] bcast_S1x1_S4096x1_0_1 : (⟨S1x1, .f32⟩ : BufTy).Contents (Elt F) → (⟨S4096x1, .f32⟩ : BufTy).Contents (Elt F)),
    binary main_v95 main_v97 main_v98 (addf : (⟨S4096x1, .f32⟩ : BufTy).Contents (Elt F) → (⟨S4096x1, .f32⟩ : BufTy).Contents (Elt F) → (⟨S4096x1, .f32⟩ : BufTy).Contents (Elt F)) ]

/-- Operations 131 … 138 of the program. -/
abbrev P10 : List (HloOp τ sig (Elt F)) :=
  [ unary main_v98 main_v99 (Host.negf : (⟨S4096x1, .f32⟩ : BufTy).Contents (Elt F) → (⟨S4096x1, .f32⟩ : BufTy).Contents (Elt F)),
    unary main_v99 main_v100 (Host.exp : (⟨S4096x1, .f32⟩ : BufTy).Contents (Elt F) → (⟨S4096x1, .f32⟩ : BufTy).Contents (Elt F)),
    nullary main_cst_19 (constant S_ .f32 0x3F800000#32),
    unary main_cst_19 main_v101 (broadcastInDim S4096x1 ![] bcast_S_S4096x1 : (⟨S_, .f32⟩ : BufTy).Contents (Elt F) → (⟨S4096x1, .f32⟩ : BufTy).Contents (Elt F)),
    binary main_v101 main_v100 main_v102 (addf : (⟨S4096x1, .f32⟩ : BufTy).Contents (Elt F) → (⟨S4096x1, .f32⟩ : BufTy).Contents (Elt F) → (⟨S4096x1, .f32⟩ : BufTy).Contents (Elt F)),
    nullary main_cst_20 (constant S_ .f32 0x3F800000#32),
    unary main_cst_20 main_v103 (broadcastInDim S4096x1 ![] bcast_S_S4096x1 : (⟨S_, .f32⟩ : BufTy).Contents (Elt F) → (⟨S4096x1, .f32⟩ : BufTy).Contents (Elt F)),
    binary main_v103 main_v102 main_v104 (Host.divf : (⟨S4096x1, .f32⟩ : BufTy).Contents (Elt F) → (⟨S4096x1, .f32⟩ : BufTy).Contents (Elt F) → (⟨S4096x1, .f32⟩ : BufTy).Contents (Elt F)) ]

/-- The program's operations are the eleven pieces in order. -/
theorem ops_split : (ops : List (HloOp τ sig (Elt F))) = P0 ++ (P1 ++ (P2 ++ (P3 ++ (P4 ++ (P5 ++ (P6 ++ (P7 ++ (P8 ++ (P9 ++ P10))))))))) := rfl

end Pieces

variable (m : (ℓ : Loc nD τ sig) → Buf (Elt Ideal) ℓ) (c : Dev nD)

/-- Argument 0 of the program, as launched. -/
abbrev B0 : (⟨S4096x768, .f32⟩ : BufTy).Contents (Elt Ideal) := m ((c.tc : Thread nD τ).loc main_arg0)

/-- Argument 1 of the program, as launched. -/
abbrev B1 : (⟨S50000x128, .f32⟩ : BufTy).Contents (Elt Ideal) := m ((c.tc : Thread nD τ).loc main_arg1)

/-- Argument 2 of the program, as launched. -/
abbrev B2 : (⟨S2x800000, .i32⟩ : BufTy).Contents (Elt Ideal) := m ((c.tc : Thread nD τ).loc main_arg2)

/-- Argument 3 of the program, as launched. -/
abbrev B3 : (⟨S4096x20, .i32⟩ : BufTy).Contents (Elt Ideal) := m ((c.tc : Thread nD τ).loc main_arg3)

/-- Argument 4 of the program, as launched. -/
abbrev B4 : (⟨S128x128, .f32⟩ : BufTy).Contents (Elt Ideal) := m ((c.tc : Thread nD τ).loc main_arg4)

/-- Argument 5 of the program, as launched. -/
abbrev B5 : (⟨S128, .f32⟩ : BufTy).Contents (Elt Ideal) := m ((c.tc : Thread nD τ).loc main_arg5)

/-- Argument 6 of the program, as launched. -/
abbrev B6 : (⟨S128x128, .f32⟩ : BufTy).Contents (Elt Ideal) := m ((c.tc : Thread nD τ).loc main_arg6)

/-- Argument 7 of the program, as launched. -/
abbrev B7 : (⟨S128, .f32⟩ : BufTy).Contents (Elt Ideal) := m ((c.tc : Thread nD τ).loc main_arg7)

/-- Argument 8 of the program, as launched. -/
abbrev B8 : (⟨S896x448, .f32⟩ : BufTy).Contents (Elt Ideal) := m ((c.tc : Thread nD τ).loc main_arg8)

/-- Argument 9 of the program, as launched. -/
abbrev B9 : (⟨S448, .f32⟩ : BufTy).Contents (Elt Ideal) := m ((c.tc : Thread nD τ).loc main_arg9)

/-- Argument 10 of the program, as launched. -/
abbrev B10 : (⟨S448x1, .f32⟩ : BufTy).Contents (Elt Ideal) := m ((c.tc : Thread nD τ).loc main_arg10)

/-- Argument 11 of the program, as launched. -/
abbrev B11 : (⟨S1, .f32⟩ : BufTy).Contents (Elt Ideal) := m ((c.tc : Thread nD τ).loc main_arg11)

/-- The buffers after piece 0. -/
def W0 : Valuation τ sig (Elt Ideal) := after (P0 (F := Ideal)) (launchContents m c)

theorem at0_arg11 : W0 m c (Proc.devRef .tc main_arg11) = B11 m c := by
  unfold W0
  simp only [P0]
  after_results_simp
  all_goals rfl

theorem at0_arg10 : W0 m c (Proc.devRef .tc main_arg10) = B10 m c := by
  unfold W0
  simp only [P0]
  after_results_simp
  all_goals rfl

theorem at0_arg9 : W0 m c (Proc.devRef .tc main_arg9) = B9 m c := by
  unfold W0
  simp only [P0]
  after_results_simp
  all_goals rfl

theorem at0_arg8 : W0 m c (Proc.devRef .tc main_arg8) = B8 m c := by
  unfold W0
  simp only [P0]
  after_results_simp
  all_goals rfl

theorem at0_arg0 : W0 m c (Proc.devRef .tc main_arg0) = B0 m c := by
  unfold W0
  simp only [P0]
  after_results_simp
  all_goals rfl

theorem at0_arg3 : W0 m c (Proc.devRef .tc main_arg3) = B3 m c := by
  unfold W0
  simp only [P0]
  after_results_simp
  all_goals rfl

theorem at0_arg7 : W0 m c (Proc.devRef .tc main_arg7) = B7 m c := by
  unfold W0
  simp only [P0]
  after_results_simp
  all_goals rfl

theorem at0_v6 : W0 m c (Proc.devRef .tc main_v6) = val_main_v6 (F := Ideal) (B2 m c) := by
  unfold W0
  simp only [P0]
  after_results_simp
  all_goals rfl

theorem at0_v3 : W0 m c (Proc.devRef .tc main_v3) = val_main_v3 (F := Ideal) (B2 m c) := by
  unfold W0
  simp only [P0]
  after_results_simp
  all_goals rfl

theorem at0_arg6 : W0 m c (Proc.devRef .tc main_arg6) = B6 m c := by
  unfold W0
  simp only [P0]
  after_results_simp
  all_goals rfl

theorem at0_arg5 : W0 m c (Proc.devRef .tc main_arg5) = B5 m c := by
  unfold W0
  simp only [P0]
  after_results_simp
  all_goals rfl

theorem at0_arg1 : W0 m c (Proc.devRef .tc main_arg1) = B1 m c := by
  unfold W0
  simp only [P0]
  after_results_simp
  all_goals rfl

theorem at0_arg4 : W0 m c (Proc.devRef .tc main_arg4) = B4 m c := by
  unfold W0
  simp only [P0]
  after_results_simp
  all_goals rfl

theorem at0_v12 : W0 m c (Proc.devRef .tc main_v12) = val_main_v12 (F := Ideal) (B2 m c) := by
  unfold W0
  simp only [P0]
  after_results_simp
  all_goals rfl

theorem at0_v13 : W0 m c (Proc.devRef .tc main_v13) = val_main_v13 (F := Ideal) (B2 m c) := by
  unfold W0
  simp only [P0]
  after_results_simp
  all_goals rfl

theorem at0_cst_2 : W0 m c (Proc.devRef .tc main_cst_2) = val_main_cst_2 (F := Ideal) := by
  unfold W0
  simp only [P0]
  after_results_simp
  all_goals rfl

/-- The buffers after piece 1. -/
def W1 : Valuation τ sig (Elt Ideal) := after (P1 (F := Ideal)) (W0 m c)

theorem at1_arg11 : W1 m c (Proc.devRef .tc main_arg11) = B11 m c := by
  unfold W1
  simp only [P1]
  after_results_simp
  exact at0_arg11 m c

theorem at1_arg10 : W1 m c (Proc.devRef .tc main_arg10) = B10 m c := by
  unfold W1
  simp only [P1]
  after_results_simp
  exact at0_arg10 m c

theorem at1_arg9 : W1 m c (Proc.devRef .tc main_arg9) = B9 m c := by
  unfold W1
  simp only [P1]
  after_results_simp
  exact at0_arg9 m c

theorem at1_arg8 : W1 m c (Proc.devRef .tc main_arg8) = B8 m c := by
  unfold W1
  simp only [P1]
  after_results_simp
  exact at0_arg8 m c

theorem at1_arg0 : W1 m c (Proc.devRef .tc main_arg0) = B0 m c := by
  unfold W1
  simp only [P1]
  after_results_simp
  exact at0_arg0 m c

theorem at1_arg3 : W1 m c (Proc.devRef .tc main_arg3) = B3 m c := by
  unfold W1
  simp only [P1]
  after_results_simp
  exact at0_arg3 m c

theorem at1_arg7 : W1 m c (Proc.devRef .tc main_arg7) = B7 m c := by
  unfold W1
  simp only [P1]
  after_results_simp
  exact at0_arg7 m c

theorem at1_v6 : W1 m c (Proc.devRef .tc main_v6) = val_main_v6 (F := Ideal) (B2 m c) := by
  unfold W1
  simp only [P1]
  after_results_simp
  exact at0_v6 m c

theorem at1_v3 : W1 m c (Proc.devRef .tc main_v3) = val_main_v3 (F := Ideal) (B2 m c) := by
  unfold W1
  simp only [P1]
  after_results_simp
  exact at0_v3 m c

theorem at1_arg6 : W1 m c (Proc.devRef .tc main_arg6) = B6 m c := by
  unfold W1
  simp only [P1]
  after_results_simp
  exact at0_arg6 m c

theorem at1_arg5 : W1 m c (Proc.devRef .tc main_arg5) = B5 m c := by
  unfold W1
  simp only [P1]
  after_results_simp
  exact at0_arg5 m c

theorem at1_arg1 : W1 m c (Proc.devRef .tc main_arg1) = B1 m c := by
  unfold W1
  simp only [P1]
  after_results_simp
  exact at0_arg1 m c

theorem at1_arg4 : W1 m c (Proc.devRef .tc main_arg4) = B4 m c := by
  unfold W1
  simp only [P1]
  after_results_simp
  exact at0_arg4 m c

theorem at1_v14 : W1 m c (Proc.devRef .tc main_v14) = val_main_v14 (F := Ideal) (B2 m c) := by
  unfold W1
  simp only [P1]
  after_results_simp
  all_goals (try simp only [TRef.toBuf, TRef.ofBuf, cast_eq])
  all_goals (try simp only [at0_arg11 m c, at0_arg10 m c, at0_arg9 m c, at0_arg8 m c, at0_arg0 m c, at0_arg3 m c, at0_arg7 m c, at0_v6 m c, at0_v3 m c, at0_arg6 m c, at0_arg5 m c, at0_arg1 m c, at0_arg4 m c, at0_v12 m c, at0_v13 m c, at0_cst_2 m c])
  all_goals rfl

/-- The buffers after piece 2. -/
def W2 : Valuation τ sig (Elt Ideal) := after (P2 (F := Ideal)) (W1 m c)

theorem at2_arg11 : W2 m c (Proc.devRef .tc main_arg11) = B11 m c := by
  unfold W2
  simp only [P2]
  after_results_simp
  exact at1_arg11 m c

theorem at2_arg10 : W2 m c (Proc.devRef .tc main_arg10) = B10 m c := by
  unfold W2
  simp only [P2]
  after_results_simp
  exact at1_arg10 m c

theorem at2_arg9 : W2 m c (Proc.devRef .tc main_arg9) = B9 m c := by
  unfold W2
  simp only [P2]
  after_results_simp
  exact at1_arg9 m c

theorem at2_arg8 : W2 m c (Proc.devRef .tc main_arg8) = B8 m c := by
  unfold W2
  simp only [P2]
  after_results_simp
  exact at1_arg8 m c

theorem at2_arg0 : W2 m c (Proc.devRef .tc main_arg0) = B0 m c := by
  unfold W2
  simp only [P2]
  after_results_simp
  exact at1_arg0 m c

theorem at2_arg3 : W2 m c (Proc.devRef .tc main_arg3) = B3 m c := by
  unfold W2
  simp only [P2]
  after_results_simp
  exact at1_arg3 m c

theorem at2_arg7 : W2 m c (Proc.devRef .tc main_arg7) = B7 m c := by
  unfold W2
  simp only [P2]
  after_results_simp
  exact at1_arg7 m c

theorem at2_v6 : W2 m c (Proc.devRef .tc main_v6) = val_main_v6 (F := Ideal) (B2 m c) := by
  unfold W2
  simp only [P2]
  after_results_simp
  exact at1_v6 m c

theorem at2_v29 : W2 m c (Proc.devRef .tc main_v29) = val_main_v29 (F := Ideal) (B2 m c) := by
  unfold W2
  simp only [P2]
  after_results_simp
  all_goals (try simp only [at1_arg11 m c, at1_arg10 m c, at1_arg9 m c, at1_arg8 m c, at1_arg0 m c, at1_arg3 m c, at1_arg7 m c, at1_v6 m c, at1_v3 m c, at1_arg6 m c, at1_arg5 m c, at1_arg1 m c, at1_arg4 m c, at1_v14 m c])
  all_goals rfl

theorem at2_v3 : W2 m c (Proc.devRef .tc main_v3) = val_main_v3 (F := Ideal) (B2 m c) := by
  unfold W2
  simp only [P2]
  after_results_simp
  exact at1_v3 m c

theorem at2_arg6 : W2 m c (Proc.devRef .tc main_arg6) = B6 m c := by
  unfold W2
  simp only [P2]
  after_results_simp
  exact at1_arg6 m c

theorem at2_v46 : W2 m c (Proc.devRef .tc main_v46) = val_main_v46 (F := Ideal) (B1 m c) (B2 m c) (B4 m c) (B5 m c) := by
  unfold W2
  simp only [P2]
  after_results_simp
  all_goals (try simp only [at1_arg11 m c, at1_arg10 m c, at1_arg9 m c, at1_arg8 m c, at1_arg0 m c, at1_arg3 m c, at1_arg7 m c, at1_v6 m c, at1_v3 m c, at1_arg6 m c, at1_arg5 m c, at1_arg1 m c, at1_arg4 m c, at1_v14 m c])
  all_goals rfl

/-- The buffers after piece 3. -/
def W3 : Valuation τ sig (Elt Ideal) := after (P3 (F := Ideal)) (W2 m c)

theorem at3_arg11 : W3 m c (Proc.devRef .tc main_arg11) = B11 m c := by
  unfold W3
  simp only [P3]
  after_results_simp
  exact at2_arg11 m c

theorem at3_arg10 : W3 m c (Proc.devRef .tc main_arg10) = B10 m c := by
  unfold W3
  simp only [P3]
  after_results_simp
  exact at2_arg10 m c

theorem at3_arg9 : W3 m c (Proc.devRef .tc main_arg9) = B9 m c := by
  unfold W3
  simp only [P3]
  after_results_simp
  exact at2_arg9 m c

theorem at3_arg8 : W3 m c (Proc.devRef .tc main_arg8) = B8 m c := by
  unfold W3
  simp only [P3]
  after_results_simp
  exact at2_arg8 m c

theorem at3_arg0 : W3 m c (Proc.devRef .tc main_arg0) = B0 m c := by
  unfold W3
  simp only [P3]
  after_results_simp
  exact at2_arg0 m c

theorem at3_arg3 : W3 m c (Proc.devRef .tc main_arg3) = B3 m c := by
  unfold W3
  simp only [P3]
  after_results_simp
  exact at2_arg3 m c

theorem at3_arg7 : W3 m c (Proc.devRef .tc main_arg7) = B7 m c := by
  unfold W3
  simp only [P3]
  after_results_simp
  exact at2_arg7 m c

theorem at3_v6 : W3 m c (Proc.devRef .tc main_v6) = val_main_v6 (F := Ideal) (B2 m c) := by
  unfold W3
  simp only [P3]
  after_results_simp
  exact at2_v6 m c

theorem at3_v29 : W3 m c (Proc.devRef .tc main_v29) = val_main_v29 (F := Ideal) (B2 m c) := by
  unfold W3
  simp only [P3]
  after_results_simp
  exact at2_v29 m c

theorem at3_v3 : W3 m c (Proc.devRef .tc main_v3) = val_main_v3 (F := Ideal) (B2 m c) := by
  unfold W3
  simp only [P3]
  after_results_simp
  exact at2_v3 m c

theorem at3_v47 : W3 m c (Proc.devRef .tc main_v47) = val_main_v47 (F := Ideal) (B1 m c) (B2 m c) (B4 m c) (B5 m c) := by
  unfold W3
  simp only [P3]
  after_results_simp
  all_goals (try simp only [TRef.toBuf, TRef.ofBuf, cast_eq])
  all_goals (try simp only [at2_arg11 m c, at2_arg10 m c, at2_arg9 m c, at2_arg8 m c, at2_arg0 m c, at2_arg3 m c, at2_arg7 m c, at2_v6 m c, at2_v29 m c, at2_v3 m c, at2_arg6 m c, at2_v46 m c])
  all_goals rfl

theorem at3_arg6 : W3 m c (Proc.devRef .tc main_arg6) = B6 m c := by
  unfold W3
  simp only [P3]
  after_results_simp
  exact at2_arg6 m c

/-- The buffers after piece 4. -/
def W4 : Valuation τ sig (Elt Ideal) := after (P4 (F := Ideal)) (W3 m c)

theorem at4_arg11 : W4 m c (Proc.devRef .tc main_arg11) = B11 m c := by
  unfold W4
  simp only [P4]
  after_results_simp
  exact at3_arg11 m c

theorem at4_arg10 : W4 m c (Proc.devRef .tc main_arg10) = B10 m c := by
  unfold W4
  simp only [P4]
  after_results_simp
  exact at3_arg10 m c

theorem at4_arg9 : W4 m c (Proc.devRef .tc main_arg9) = B9 m c := by
  unfold W4
  simp only [P4]
  after_results_simp
  exact at3_arg9 m c

theorem at4_arg8 : W4 m c (Proc.devRef .tc main_arg8) = B8 m c := by
  unfold W4
  simp only [P4]
  after_results_simp
  exact at3_arg8 m c

theorem at4_arg0 : W4 m c (Proc.devRef .tc main_arg0) = B0 m c := by
  unfold W4
  simp only [P4]
  after_results_simp
  exact at3_arg0 m c

theorem at4_arg3 : W4 m c (Proc.devRef .tc main_arg3) = B3 m c := by
  unfold W4
  simp only [P4]
  after_results_simp
  exact at3_arg3 m c

theorem at4_v64 : W4 m c (Proc.devRef .tc main_v64) = val_main_v64 (F := Ideal) (B1 m c) (B2 m c) (B4 m c) (B5 m c) (B6 m c) (B7 m c) := by
  unfold W4
  simp only [P4]
  after_results_simp
  all_goals (try simp only [at3_arg11 m c, at3_arg10 m c, at3_arg9 m c, at3_arg8 m c, at3_arg0 m c, at3_arg3 m c, at3_arg7 m c, at3_v6 m c, at3_v29 m c, at3_v3 m c, at3_v47 m c, at3_arg6 m c])
  all_goals rfl

/-- The buffers after piece 5. -/
def W5 : Valuation τ sig (Elt Ideal) := after (P5 (F := Ideal)) (W4 m c)

theorem at5_arg11 : W5 m c (Proc.devRef .tc main_arg11) = B11 m c := by
  unfold W5
  simp only [P5]
  after_results_simp
  exact at4_arg11 m c

theorem at5_arg10 : W5 m c (Proc.devRef .tc main_arg10) = B10 m c := by
  unfold W5
  simp only [P5]
  after_results_simp
  exact at4_arg10 m c

theorem at5_arg9 : W5 m c (Proc.devRef .tc main_arg9) = B9 m c := by
  unfold W5
  simp only [P5]
  after_results_simp
  exact at4_arg9 m c

theorem at5_arg8 : W5 m c (Proc.devRef .tc main_arg8) = B8 m c := by
  unfold W5
  simp only [P5]
  after_results_simp
  exact at4_arg8 m c

theorem at5_arg0 : W5 m c (Proc.devRef .tc main_arg0) = B0 m c := by
  unfold W5
  simp only [P5]
  after_results_simp
  exact at4_arg0 m c

theorem at5_v65 : W5 m c (Proc.devRef .tc main_v65) = val_main_v65 (F := Ideal) (B1 m c) (B2 m c) (B4 m c) (B5 m c) (B6 m c) (B7 m c) := by
  unfold W5
  simp only [P5]
  after_results_simp
  all_goals (try simp only [TRef.toBuf, TRef.ofBuf, cast_eq])
  all_goals (try simp only [at4_arg11 m c, at4_arg10 m c, at4_arg9 m c, at4_arg8 m c, at4_arg0 m c, at4_arg3 m c, at4_v64 m c])
  all_goals rfl

theorem at5_arg3 : W5 m c (Proc.devRef .tc main_arg3) = B3 m c := by
  unfold W5
  simp only [P5]
  after_results_simp
  exact at4_arg3 m c

/-- The buffers after piece 6. -/
def W6 : Valuation τ sig (Elt Ideal) := after (P6 (F := Ideal)) (W5 m c)

theorem at6_arg11 : W6 m c (Proc.devRef .tc main_arg11) = B11 m c := by
  unfold W6
  simp only [P6]
  after_results_simp
  exact at5_arg11 m c

theorem at6_arg10 : W6 m c (Proc.devRef .tc main_arg10) = B10 m c := by
  unfold W6
  simp only [P6]
  after_results_simp
  exact at5_arg10 m c

theorem at6_arg9 : W6 m c (Proc.devRef .tc main_arg9) = B9 m c := by
  unfold W6
  simp only [P6]
  after_results_simp
  exact at5_arg9 m c

theorem at6_arg8 : W6 m c (Proc.devRef .tc main_arg8) = B8 m c := by
  unfold W6
  simp only [P6]
  after_results_simp
  exact at5_arg8 m c

theorem at6_arg0 : W6 m c (Proc.devRef .tc main_arg0) = B0 m c := by
  unfold W6
  simp only [P6]
  after_results_simp
  exact at5_arg0 m c

theorem at6_v67 : W6 m c (Proc.devRef .tc main_v67) = val_main_v67 (F := Ideal) (B3 m c) := by
  unfold W6
  simp only [P6]
  after_results_simp
  all_goals (try simp only [TRef.toBuf, TRef.ofBuf, cast_eq])
  all_goals (try simp only [at5_arg11 m c, at5_arg10 m c, at5_arg9 m c, at5_arg8 m c, at5_arg0 m c, at5_v65 m c, at5_arg3 m c])
  all_goals rfl

theorem at6_v65 : W6 m c (Proc.devRef .tc main_v65) = val_main_v65 (F := Ideal) (B1 m c) (B2 m c) (B4 m c) (B5 m c) (B6 m c) (B7 m c) := by
  unfold W6
  simp only [P6]
  after_results_simp
  exact at5_v65 m c

theorem at6_v68 : W6 m c (Proc.devRef .tc main_v68) = val_main_v68 (F := Ideal) (B3 m c) := by
  unfold W6
  simp only [P6]
  after_results_simp
  all_goals (try simp only [TRef.toBuf, TRef.ofBuf, cast_eq])
  all_goals (try simp only [at5_arg11 m c, at5_arg10 m c, at5_arg9 m c, at5_arg8 m c, at5_arg0 m c, at5_v65 m c, at5_arg3 m c])
  all_goals rfl

/-- The buffers after piece 7. -/
def W7 : Valuation τ sig (Elt Ideal) := after (P7 (F := Ideal)) (W6 m c)

theorem at7_arg11 : W7 m c (Proc.devRef .tc main_arg11) = B11 m c := by
  unfold W7
  simp only [P7]
  after_results_simp
  exact at6_arg11 m c

theorem at7_arg10 : W7 m c (Proc.devRef .tc main_arg10) = B10 m c := by
  unfold W7
  simp only [P7]
  after_results_simp
  exact at6_arg10 m c

theorem at7_arg9 : W7 m c (Proc.devRef .tc main_arg9) = B9 m c := by
  unfold W7
  simp only [P7]
  after_results_simp
  exact at6_arg9 m c

theorem at7_arg8 : W7 m c (Proc.devRef .tc main_arg8) = B8 m c := by
  unfold W7
  simp only [P7]
  after_results_simp
  exact at6_arg8 m c

theorem at7_arg0 : W7 m c (Proc.devRef .tc main_arg0) = B0 m c := by
  unfold W7
  simp only [P7]
  after_results_simp
  exact at6_arg0 m c

theorem at7_v79 : W7 m c (Proc.devRef .tc main_v79) = val_main_v79 (F := Ideal) (B1 m c) (B2 m c) (B3 m c) (B4 m c) (B5 m c) (B6 m c) (B7 m c) := by
  unfold W7
  simp only [P7]
  after_results_simp
  all_goals (try simp only [at6_arg11 m c, at6_arg10 m c, at6_arg9 m c, at6_arg8 m c, at6_arg0 m c, at6_v67 m c, at6_v65 m c, at6_v68 m c])
  all_goals rfl

theorem at7_v67 : W7 m c (Proc.devRef .tc main_v67) = val_main_v67 (F := Ideal) (B3 m c) := by
  unfold W7
  simp only [P7]
  after_results_simp
  exact at6_v67 m c

/-- The buffers after piece 8. -/
def W8 : Valuation τ sig (Elt Ideal) := after (P8 (F := Ideal)) (W7 m c)

theorem at8_arg11 : W8 m c (Proc.devRef .tc main_arg11) = B11 m c := by
  unfold W8
  simp only [P8]
  after_results_simp
  exact at7_arg11 m c

theorem at8_arg10 : W8 m c (Proc.devRef .tc main_arg10) = B10 m c := by
  unfold W8
  simp only [P8]
  after_results_simp
  exact at7_arg10 m c

theorem at8_arg9 : W8 m c (Proc.devRef .tc main_arg9) = B9 m c := by
  unfold W8
  simp only [P8]
  after_results_simp
  exact at7_arg9 m c

theorem at8_arg8 : W8 m c (Proc.devRef .tc main_arg8) = B8 m c := by
  unfold W8
  simp only [P8]
  after_results_simp
  exact at7_arg8 m c

theorem at8_arg0 : W8 m c (Proc.devRef .tc main_arg0) = B0 m c := by
  unfold W8
  simp only [P8]
  after_results_simp
  exact at7_arg0 m c

theorem at8_v88 : W8 m c (Proc.devRef .tc main_v88) = val_main_v88 (F := Ideal) (B1 m c) (B2 m c) (B3 m c) (B4 m c) (B5 m c) (B6 m c) (B7 m c) := by
  unfold W8
  simp only [P8]
  after_results_simp
  all_goals (try simp only [at7_arg11 m c, at7_arg10 m c, at7_arg9 m c, at7_arg8 m c, at7_arg0 m c, at7_v79 m c, at7_v67 m c])
  all_goals rfl

/-- The buffers after piece 9. -/
def W9 : Valuation τ sig (Elt Ideal) := after (P9 (F := Ideal)) (W8 m c)

theorem at9_v98 : W9 m c (Proc.devRef .tc main_v98) = val_main_v98 (F := Ideal) (B0 m c) (B1 m c) (B2 m c) (B3 m c) (B4 m c) (B5 m c) (B6 m c) (B7 m c) (B8 m c) (B9 m c) (B10 m c) (B11 m c) := by
  unfold W9
  simp only [P9]
  after_results_simp
  all_goals (try simp only [TRef.toBuf, TRef.ofBuf, cast_eq])
  rw [at8_arg0 m c, at8_v88 m c]
  all_goals (try simp only [at8_arg11 m c, at8_arg10 m c, at8_arg9 m c, at8_arg8 m c, at8_arg0 m c, at8_v88 m c])
  all_goals rfl

/-- The buffers after piece 10. -/
def W10 : Valuation τ sig (Elt Ideal) := after (P10 (F := Ideal)) (W9 m c)

theorem at10_v104 : W10 m c (Proc.devRef .tc main_v104) = val_main_v104 (F := Ideal) (B0 m c) (B1 m c) (B2 m c) (B3 m c) (B4 m c) (B5 m c) (B6 m c) (B7 m c) (B8 m c) (B9 m c) (B10 m c) (B11 m c) := by
  unfold W10
  simp only [P10]
  after_results_simp
  all_goals (try simp only [at9_v98 m c])
  all_goals rfl

/-- After the whole program the result buffer holds the final stage of the arguments. -/
theorem result_eq : after (ops : List (HloOp τ sig (Elt Ideal))) (launchContents m c) (Proc.devRef .tc main_v104)
    = val_main_v104 (F := Ideal) (B0 m c) (B1 m c) (B2 m c) (B3 m c) (B4 m c) (B5 m c) (B6 m c) (B7 m c) (B8 m c) (B9 m c) (B10 m c) (B11 m c) := by
  rw [ops_split]
  simp only [StableHlo.after_append]
  exact at10_v104 m c

/-- On every device, from any memory with zero counters: every weakly fair execution of the program terminates with the
    result buffer at the final stage of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = val_main_v104 (F := Ideal) (B0 m c) (B1 m c) (B2 m c) (B3 m c) (B4 m c) (B5 m c) (B6 m c) (B7 m c) (B8 m c) (B9 m c) (B10 m c) (B11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v104).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.Staged

end
-- ==== Proof.KernelStagesA.lean ====
/-
  The host operations before the fused stage, stretch by stretch (first half: the graph convolution's first layer).

  The operations are the reference's own, one for one, up to the gathered entity rows; so after each stretch every buffer
  that a later operation reads is stated as the reference's stage of the same name, applied to the program's arguments.
  A buffer a stretch does not write keeps what it held.
-/
import proofs.«124949_j71605694759285_2_alg».proof.Proof.Gen.KernelIdeal.Frame
import proofs.«124949_j71605694759285_2_alg».proof.Proof.RefReadP
import Idealize.ShloMosaic.Lib.StableHlo.Run

set_option maxRecDepth 16384
set_option maxHeartbeats 4000000

noncomputable section

namespace Cert.KernelIdeal.Host

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (c : Dev nD)

/-- Argument 1 of the program, as launched. -/
abbrev A1 : (⟨Cert.ReferenceIdeal.S50000x128, .f32⟩ : BufTy).Contents (Elt Ideal) := m ((c : Thread nD τ).loc main_arg1)

/-- Argument 2 of the program, as launched. -/
abbrev A2 : (⟨Cert.ReferenceIdeal.S2x800000, .i32⟩ : BufTy).Contents (Elt Ideal) := m ((c : Thread nD τ).loc main_arg2)

/-- Argument 3 of the program, as launched. -/
abbrev A3 : (⟨Cert.ReferenceIdeal.S4096x20, .i32⟩ : BufTy).Contents (Elt Ideal) := m ((c : Thread nD τ).loc main_arg3)

/-- Argument 4 of the program, as launched. -/
abbrev A4 : (⟨Cert.ReferenceIdeal.S128x128, .f32⟩ : BufTy).Contents (Elt Ideal) := m ((c : Thread nD τ).loc main_arg4)

/-- Argument 5 of the program, as launched. -/
abbrev A5 : (⟨Cert.ReferenceIdeal.S128, .f32⟩ : BufTy).Contents (Elt Ideal) := m ((c : Thread nD τ).loc main_arg5)

/-- Argument 6 of the program, as launched. -/
abbrev A6 : (⟨Cert.ReferenceIdeal.S128x128, .f32⟩ : BufTy).Contents (Elt Ideal) := m ((c : Thread nD τ).loc main_arg6)

/-- Argument 7 of the program, as launched. -/
abbrev A7 : (⟨Cert.ReferenceIdeal.S128, .f32⟩ : BufTy).Contents (Elt Ideal) := m ((c : Thread nD τ).loc main_arg7)

/-- Argument 8 of the program, as launched. -/
abbrev A8 : (⟨Cert.ReferenceIdeal.S896x448, .f32⟩ : BufTy).Contents (Elt Ideal) := m ((c : Thread nD τ).loc main_arg8)

/-- Argument 9 of the program, as launched. -/
abbrev A9 : (⟨Cert.ReferenceIdeal.S448, .f32⟩ : BufTy).Contents (Elt Ideal) := m ((c : Thread nD τ).loc main_arg9)

/-- Argument 10 of the program, as launched. -/
abbrev A10 : (⟨Cert.ReferenceIdeal.S448x1, .f32⟩ : BufTy).Contents (Elt Ideal) := m ((c : Thread nD τ).loc main_arg10)

/-- Argument 11 of the program, as launched. -/
abbrev A11 : (⟨Cert.ReferenceIdeal.S1, .f32⟩ : BufTy).Contents (Elt Ideal) := m ((c : Thread nD τ).loc main_arg11)

/-- The buffers after the host operations `hostOps0`. -/
def W0 : Valuation τ sig (Elt Ideal) := after hostOps0 (fun b => m (c, b))

theorem at0_arg11 : W0 m c (Proc.devRef .tc main_arg11) = A11 m c := by
  unfold W0
  simp only [hostOps0]
  after_results_simp
  all_goals rfl

theorem at0_arg10 : W0 m c (Proc.devRef .tc main_arg10) = A10 m c := by
  unfold W0
  simp only [hostOps0]
  after_results_simp
  all_goals rfl

theorem at0_arg9 : W0 m c (Proc.devRef .tc main_arg9) = A9 m c := by
  unfold W0
  simp only [hostOps0]
  after_results_simp
  all_goals rfl

theorem at0_arg8 : W0 m c (Proc.devRef .tc main_arg8) = A8 m c := by
  unfold W0
  simp only [hostOps0]
  after_results_simp
  all_goals rfl

theorem at0_arg3 : W0 m c (Proc.devRef .tc main_arg3) = A3 m c := by
  unfold W0
  simp only [hostOps0]
  after_results_simp
  all_goals rfl

theorem at0_arg7 : W0 m c (Proc.devRef .tc main_arg7) = A7 m c := by
  unfold W0
  simp only [hostOps0]
  after_results_simp
  all_goals rfl

theorem at0_v6 : W0 m c (Proc.devRef .tc main_v6) = val_main_v6 (F := Ideal) (A2 m c) := by
  unfold W0
  simp only [hostOps0]
  after_results_simp
  all_goals rfl

theorem at0_v3 : W0 m c (Proc.devRef .tc main_v3) = val_main_v3 (F := Ideal) (A2 m c) := by
  unfold W0
  simp only [hostOps0]
  after_results_simp
  all_goals rfl

theorem at0_arg6 : W0 m c (Proc.devRef .tc main_arg6) = A6 m c := by
  unfold W0
  simp only [hostOps0]
  after_results_simp
  all_goals rfl

theorem at0_arg5 : W0 m c (Proc.devRef .tc main_arg5) = A5 m c := by
  unfold W0
  simp only [hostOps0]
  after_results_simp
  all_goals rfl

theorem at0_arg1 : W0 m c (Proc.devRef .tc main_arg1) = A1 m c := by
  unfold W0
  simp only [hostOps0]
  after_results_simp
  all_goals rfl

theorem at0_arg4 : W0 m c (Proc.devRef .tc main_arg4) = A4 m c := by
  unfold W0
  simp only [hostOps0]
  after_results_simp
  all_goals rfl

theorem at0_v12 : W0 m c (Proc.devRef .tc main_v12) = val_main_v12 (F := Ideal) (A2 m c) := by
  unfold W0
  simp only [hostOps0]
  after_results_simp
  all_goals rfl

theorem at0_v13 : W0 m c (Proc.devRef .tc main_v13) = val_main_v13 (F := Ideal) (A2 m c) := by
  unfold W0
  simp only [hostOps0]
  after_results_simp
  all_goals rfl

theorem at0_cst_2 : W0 m c (Proc.devRef .tc main_cst_2) = val_main_cst_2 (F := Ideal) := by
  unfold W0
  simp only [hostOps0]
  after_results_simp
  all_goals rfl

/-- The buffers after the host operations `hostOps0_1`. -/
def W1 : Valuation τ sig (Elt Ideal) := after hostOps0_1 (W0 m c)

theorem at1_arg11 : W1 m c (Proc.devRef .tc main_arg11) = A11 m c := by
  unfold W1
  simp only [hostOps0_1]
  after_results_simp
  exact at0_arg11 m c

theorem at1_arg10 : W1 m c (Proc.devRef .tc main_arg10) = A10 m c := by
  unfold W1
  simp only [hostOps0_1]
  after_results_simp
  exact at0_arg10 m c

theorem at1_arg9 : W1 m c (Proc.devRef .tc main_arg9) = A9 m c := by
  unfold W1
  simp only [hostOps0_1]
  after_results_simp
  exact at0_arg9 m c

theorem at1_arg8 : W1 m c (Proc.devRef .tc main_arg8) = A8 m c := by
  unfold W1
  simp only [hostOps0_1]
  after_results_simp
  exact at0_arg8 m c

theorem at1_arg3 : W1 m c (Proc.devRef .tc main_arg3) = A3 m c := by
  unfold W1
  simp only [hostOps0_1]
  after_results_simp
  exact at0_arg3 m c

theorem at1_arg7 : W1 m c (Proc.devRef .tc main_arg7) = A7 m c := by
  unfold W1
  simp only [hostOps0_1]
  after_results_simp
  exact at0_arg7 m c

theorem at1_v6 : W1 m c (Proc.devRef .tc main_v6) = val_main_v6 (F := Ideal) (A2 m c) := by
  unfold W1
  simp only [hostOps0_1]
  after_results_simp
  exact at0_v6 m c

theorem at1_v3 : W1 m c (Proc.devRef .tc main_v3) = val_main_v3 (F := Ideal) (A2 m c) := by
  unfold W1
  simp only [hostOps0_1]
  after_results_simp
  exact at0_v3 m c

theorem at1_arg6 : W1 m c (Proc.devRef .tc main_arg6) = A6 m c := by
  unfold W1
  simp only [hostOps0_1]
  after_results_simp
  exact at0_arg6 m c

theorem at1_arg5 : W1 m c (Proc.devRef .tc main_arg5) = A5 m c := by
  unfold W1
  simp only [hostOps0_1]
  after_results_simp
  exact at0_arg5 m c

theorem at1_arg1 : W1 m c (Proc.devRef .tc main_arg1) = A1 m c := by
  unfold W1
  simp only [hostOps0_1]
  after_results_simp
  exact at0_arg1 m c

theorem at1_arg4 : W1 m c (Proc.devRef .tc main_arg4) = A4 m c := by
  unfold W1
  simp only [hostOps0_1]
  after_results_simp
  exact at0_arg4 m c

theorem at1_v14 : W1 m c (Proc.devRef .tc main_v14) = val_main_v14 (F := Ideal) (A2 m c) := by
  unfold W1
  simp only [hostOps0_1]
  after_results_simp
  all_goals (try simp only [TRef.toBuf, TRef.ofBuf, cast_eq])
  all_goals (try simp only [at0_arg11 m c, at0_arg10 m c, at0_arg9 m c, at0_arg8 m c, at0_arg3 m c, at0_arg7 m c, at0_v6 m c, at0_v3 m c, at0_arg6 m c, at0_arg5 m c, at0_arg1 m c, at0_arg4 m c, at0_v12 m c, at0_v13 m c, at0_cst_2 m c])
  all_goals rfl

/-- The buffers after the host operations `hostOps0_2`. -/
def W2 : Valuation τ sig (Elt Ideal) := after hostOps0_2 (W1 m c)

theorem at2_arg11 : W2 m c (Proc.devRef .tc main_arg11) = A11 m c := by
  unfold W2
  simp only [hostOps0_2]
  after_results_simp
  exact at1_arg11 m c

theorem at2_arg10 : W2 m c (Proc.devRef .tc main_arg10) = A10 m c := by
  unfold W2
  simp only [hostOps0_2]
  after_results_simp
  exact at1_arg10 m c

theorem at2_arg9 : W2 m c (Proc.devRef .tc main_arg9) = A9 m c := by
  unfold W2
  simp only [hostOps0_2]
  after_results_simp
  exact at1_arg9 m c

theorem at2_arg8 : W2 m c (Proc.devRef .tc main_arg8) = A8 m c := by
  unfold W2
  simp only [hostOps0_2]
  after_results_simp
  exact at1_arg8 m c

theorem at2_arg3 : W2 m c (Proc.devRef .tc main_arg3) = A3 m c := by
  unfold W2
  simp only [hostOps0_2]
  after_results_simp
  exact at1_arg3 m c

theorem at2_arg7 : W2 m c (Proc.devRef .tc main_arg7) = A7 m c := by
  unfold W2
  simp only [hostOps0_2]
  after_results_simp
  exact at1_arg7 m c

theorem at2_v6 : W2 m c (Proc.devRef .tc main_v6) = val_main_v6 (F := Ideal) (A2 m c) := by
  unfold W2
  simp only [hostOps0_2]
  after_results_simp
  exact at1_v6 m c

theorem at2_v29 : W2 m c (Proc.devRef .tc main_v29) = val_main_v29 (F := Ideal) (A2 m c) := by
  unfold W2
  simp only [hostOps0_2]
  after_results_simp
  all_goals (try simp only [at1_arg11 m c, at1_arg10 m c, at1_arg9 m c, at1_arg8 m c, at1_arg3 m c, at1_arg7 m c, at1_v6 m c, at1_v3 m c, at1_arg6 m c, at1_arg5 m c, at1_arg1 m c, at1_arg4 m c, at1_v14 m c])
  all_goals rfl

theorem at2_v3 : W2 m c (Proc.devRef .tc main_v3) = val_main_v3 (F := Ideal) (A2 m c) := by
  unfold W2
  simp only [hostOps0_2]
  after_results_simp
  exact at1_v3 m c

theorem at2_arg6 : W2 m c (Proc.devRef .tc main_arg6) = A6 m c := by
  unfold W2
  simp only [hostOps0_2]
  after_results_simp
  exact at1_arg6 m c

theorem at2_v46 : W2 m c (Proc.devRef .tc main_v46) = val_main_v46 (F := Ideal) (A1 m c) (A2 m c) (A4 m c) (A5 m c) := by
  unfold W2
  simp only [hostOps0_2]
  after_results_simp
  all_goals (try simp only [at1_arg11 m c, at1_arg10 m c, at1_arg9 m c, at1_arg8 m c, at1_arg3 m c, at1_arg7 m c, at1_v6 m c, at1_v3 m c, at1_arg6 m c, at1_arg5 m c, at1_arg1 m c, at1_arg4 m c, at1_v14 m c])
  all_goals rfl

/-- The buffers after the host operations `hostOps0_3`. -/
def W3 : Valuation τ sig (Elt Ideal) := after hostOps0_3 (W2 m c)

theorem at3_arg11 : W3 m c (Proc.devRef .tc main_arg11) = A11 m c := by
  unfold W3
  simp only [hostOps0_3]
  after_results_simp
  exact at2_arg11 m c

theorem at3_arg10 : W3 m c (Proc.devRef .tc main_arg10) = A10 m c := by
  unfold W3
  simp only [hostOps0_3]
  after_results_simp
  exact at2_arg10 m c

theorem at3_arg9 : W3 m c (Proc.devRef .tc main_arg9) = A9 m c := by
  unfold W3
  simp only [hostOps0_3]
  after_results_simp
  exact at2_arg9 m c

theorem at3_arg8 : W3 m c (Proc.devRef .tc main_arg8) = A8 m c := by
  unfold W3
  simp only [hostOps0_3]
  after_results_simp
  exact at2_arg8 m c

theorem at3_arg3 : W3 m c (Proc.devRef .tc main_arg3) = A3 m c := by
  unfold W3
  simp only [hostOps0_3]
  after_results_simp
  exact at2_arg3 m c

theorem at3_arg7 : W3 m c (Proc.devRef .tc main_arg7) = A7 m c := by
  unfold W3
  simp only [hostOps0_3]
  after_results_simp
  exact at2_arg7 m c

theorem at3_v6 : W3 m c (Proc.devRef .tc main_v6) = val_main_v6 (F := Ideal) (A2 m c) := by
  unfold W3
  simp only [hostOps0_3]
  after_results_simp
  exact at2_v6 m c

theorem at3_v29 : W3 m c (Proc.devRef .tc main_v29) = val_main_v29 (F := Ideal) (A2 m c) := by
  unfold W3
  simp only [hostOps0_3]
  after_results_simp
  exact at2_v29 m c

theorem at3_v3 : W3 m c (Proc.devRef .tc main_v3) = val_main_v3 (F := Ideal) (A2 m c) := by
  unfold W3
  simp only [hostOps0_3]
  after_results_simp
  exact at2_v3 m c

theorem at3_v47 : W3 m c (Proc.devRef .tc main_v47) = val_main_v47 (F := Ideal) (A1 m c) (A2 m c) (A4 m c) (A5 m c) := by
  unfold W3
  simp only [hostOps0_3]
  after_results_simp
  all_goals (try simp only [TRef.toBuf, TRef.ofBuf, cast_eq])
  all_goals (try simp only [at2_arg11 m c, at2_arg10 m c, at2_arg9 m c, at2_arg8 m c, at2_arg3 m c, at2_arg7 m c, at2_v6 m c, at2_v29 m c, at2_v3 m c, at2_arg6 m c, at2_v46 m c])
  all_goals rfl

theorem at3_arg6 : W3 m c (Proc.devRef .tc main_arg6) = A6 m c := by
  unfold W3
  simp only [hostOps0_3]
  after_results_simp
  exact at2_arg6 m c

/-- The buffers after the host operations `hostOps0_4`. -/
def W4 : Valuation τ sig (Elt Ideal) := after hostOps0_4 (W3 m c)

theorem at4_arg11 : W4 m c (Proc.devRef .tc main_arg11) = A11 m c := by
  unfold W4
  simp only [hostOps0_4]
  after_results_simp
  exact at3_arg11 m c

theorem at4_arg10 : W4 m c (Proc.devRef .tc main_arg10) = A10 m c := by
  unfold W4
  simp only [hostOps0_4]
  after_results_simp
  exact at3_arg10 m c

theorem at4_arg9 : W4 m c (Proc.devRef .tc main_arg9) = A9 m c := by
  unfold W4
  simp only [hostOps0_4]
  after_results_simp
  exact at3_arg9 m c

theorem at4_arg8 : W4 m c (Proc.devRef .tc main_arg8) = A8 m c := by
  unfold W4
  simp only [hostOps0_4]
  after_results_simp
  exact at3_arg8 m c

theorem at4_arg3 : W4 m c (Proc.devRef .tc main_arg3) = A3 m c := by
  unfold W4
  simp only [hostOps0_4]
  after_results_simp
  exact at3_arg3 m c

theorem at4_v64 : W4 m c (Proc.devRef .tc main_v64) = val_main_v64 (F := Ideal) (A1 m c) (A2 m c) (A4 m c) (A5 m c) (A6 m c) (A7 m c) := by
  unfold W4
  simp only [hostOps0_4]
  after_results_simp
  all_goals (try simp only [at3_arg11 m c, at3_arg10 m c, at3_arg9 m c, at3_arg8 m c, at3_arg3 m c, at3_arg7 m c, at3_v6 m c, at3_v29 m c, at3_v3 m c, at3_v47 m c, at3_arg6 m c])
  all_goals rfl

end Cert.KernelIdeal.Host

end
-- ==== Proof.KernelStagesB.lean ====
/-
  The host operations before the fused stage, stretch by stretch (second half: the graph convolution's second layer,
  the gather of each article's entity rows, the mask, the counts, and the weights re-laid for the stage), and what the
  stage therefore finds in its input arrays.
-/
import proofs.«124949_j71605694759285_2_alg».proof.Proof.KernelStagesA

set_option maxRecDepth 16384
set_option maxHeartbeats 4000000

noncomputable section

namespace Cert.KernelIdeal.Host

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (c : Dev nD)

/-- The gathered rows where the mask is set, zero elsewhere: a select between the reference's gathered rows and a zero
    array, under the reference's mask carried along the feature axis. -/
def masked (a1 : (⟨Cert.ReferenceIdeal.S50000x128, .f32⟩ : BufTy).Contents (Elt Ideal)) (a2 : (⟨Cert.ReferenceIdeal.S2x800000, .i32⟩ : BufTy).Contents (Elt Ideal))
    (a3 : (⟨Cert.ReferenceIdeal.S4096x20, .i32⟩ : BufTy).Contents (Elt Ideal)) (a4 : (⟨Cert.ReferenceIdeal.S128x128, .f32⟩ : BufTy).Contents (Elt Ideal))
    (a5 : (⟨Cert.ReferenceIdeal.S128, .f32⟩ : BufTy).Contents (Elt Ideal)) (a6 : (⟨Cert.ReferenceIdeal.S128x128, .f32⟩ : BufTy).Contents (Elt Ideal))
    (a7 : (⟨Cert.ReferenceIdeal.S128, .f32⟩ : BufTy).Contents (Elt Ideal)) : (⟨S4096x20x128, .f32⟩ : BufTy).Contents (Elt Ideal) :=
  select (broadcastInDim S4096x20x128 ![0, 1, 2] bcast_S4096x20x1_S4096x20x128_0_1_2 (val_main_v76 (F := Ideal) a3))
    (val_main_v75 (F := Ideal) a1 a2 a3 a4 a5 a6 a7)
    (broadcastInDim S4096x20x128 ![] bcast_S_S4096x20x128 (constant (F := Ideal) S_ .f32 0x00000000#32))

/-- The buffers after the host operations `hostOps0_5`. -/
def W5 : Valuation τ sig (Elt Ideal) := after hostOps0_5 (W4 m c)

theorem at5_arg11 : W5 m c (Proc.devRef .tc main_arg11) = A11 m c := by
  unfold W5
  simp only [hostOps0_5]
  after_results_simp
  exact at4_arg11 m c

theorem at5_arg10 : W5 m c (Proc.devRef .tc main_arg10) = A10 m c := by
  unfold W5
  simp only [hostOps0_5]
  after_results_simp
  exact at4_arg10 m c

theorem at5_arg9 : W5 m c (Proc.devRef .tc main_arg9) = A9 m c := by
  unfold W5
  simp only [hostOps0_5]
  after_results_simp
  exact at4_arg9 m c

theorem at5_arg8 : W5 m c (Proc.devRef .tc main_arg8) = A8 m c := by
  unfold W5
  simp only [hostOps0_5]
  after_results_simp
  exact at4_arg8 m c

theorem at5_v65 : W5 m c (Proc.devRef .tc main_v65) = val_main_v65 (F := Ideal) (A1 m c) (A2 m c) (A4 m c) (A5 m c) (A6 m c) (A7 m c) := by
  unfold W5
  simp only [hostOps0_5]
  after_results_simp
  all_goals (try simp only [TRef.toBuf, TRef.ofBuf, cast_eq])
  all_goals (try simp only [at4_arg11 m c, at4_arg10 m c, at4_arg9 m c, at4_arg8 m c, at4_arg3 m c, at4_v64 m c])
  all_goals rfl

theorem at5_arg3 : W5 m c (Proc.devRef .tc main_arg3) = A3 m c := by
  unfold W5
  simp only [hostOps0_5]
  after_results_simp
  exact at4_arg3 m c

/-- The buffers after the host operations `hostOps0_6`. -/
def W6 : Valuation τ sig (Elt Ideal) := after hostOps0_6 (W5 m c)

theorem at6_arg11 : W6 m c (Proc.devRef .tc main_arg11) = A11 m c := by
  unfold W6
  simp only [hostOps0_6]
  after_results_simp
  exact at5_arg11 m c

theorem at6_arg10 : W6 m c (Proc.devRef .tc main_arg10) = A10 m c := by
  unfold W6
  simp only [hostOps0_6]
  after_results_simp
  exact at5_arg10 m c

theorem at6_arg9 : W6 m c (Proc.devRef .tc main_arg9) = A9 m c := by
  unfold W6
  simp only [hostOps0_6]
  after_results_simp
  exact at5_arg9 m c

theorem at6_arg8 : W6 m c (Proc.devRef .tc main_arg8) = A8 m c := by
  unfold W6
  simp only [hostOps0_6]
  after_results_simp
  exact at5_arg8 m c

theorem at6_v67 : W6 m c (Proc.devRef .tc main_v67) = val_main_v67 (F := Ideal) (A3 m c) := by
  unfold W6
  simp only [hostOps0_6]
  after_results_simp
  all_goals (try simp only [at5_arg11 m c, at5_arg10 m c, at5_arg9 m c, at5_arg8 m c, at5_v65 m c, at5_arg3 m c])
  all_goals rfl

theorem at6_v65 : W6 m c (Proc.devRef .tc main_v65) = val_main_v65 (F := Ideal) (A1 m c) (A2 m c) (A4 m c) (A5 m c) (A6 m c) (A7 m c) := by
  unfold W6
  simp only [hostOps0_6]
  after_results_simp
  exact at5_v65 m c

theorem at6_arg3 : W6 m c (Proc.devRef .tc main_arg3) = A3 m c := by
  unfold W6
  simp only [hostOps0_6]
  after_results_simp
  exact at5_arg3 m c

theorem at6_c_13 : W6 m c (Proc.devRef .tc main_c_13) = val_main_c_13 (F := Ideal) := by
  unfold W6
  simp only [hostOps0_6]
  after_results_simp
  all_goals (try simp only [at5_arg11 m c, at5_arg10 m c, at5_arg9 m c, at5_arg8 m c, at5_v65 m c, at5_arg3 m c])
  all_goals rfl

/-- The buffers after the host operations `hostOps0_7`. -/
def W7 : Valuation τ sig (Elt Ideal) := after hostOps0_7 (W6 m c)

theorem at7_arg11 : W7 m c (Proc.devRef .tc main_arg11) = A11 m c := by
  unfold W7
  simp only [hostOps0_7]
  after_results_simp
  exact at6_arg11 m c

theorem at7_arg10 : W7 m c (Proc.devRef .tc main_arg10) = A10 m c := by
  unfold W7
  simp only [hostOps0_7]
  after_results_simp
  exact at6_arg10 m c

theorem at7_arg9 : W7 m c (Proc.devRef .tc main_arg9) = A9 m c := by
  unfold W7
  simp only [hostOps0_7]
  after_results_simp
  exact at6_arg9 m c

theorem at7_arg8 : W7 m c (Proc.devRef .tc main_arg8) = A8 m c := by
  unfold W7
  simp only [hostOps0_7]
  after_results_simp
  exact at6_arg8 m c

theorem at7_v67 : W7 m c (Proc.devRef .tc main_v67) = val_main_v67 (F := Ideal) (A3 m c) := by
  unfold W7
  simp only [hostOps0_7]
  after_results_simp
  exact at6_v67 m c

theorem at7_v65 : W7 m c (Proc.devRef .tc main_v65) = val_main_v65 (F := Ideal) (A1 m c) (A2 m c) (A4 m c) (A5 m c) (A6 m c) (A7 m c) := by
  unfold W7
  simp only [hostOps0_7]
  after_results_simp
  exact at6_v65 m c

theorem at7_v68 : W7 m c (Proc.devRef .tc main_v68) = val_main_v68 (F := Ideal) (A3 m c) := by
  unfold W7
  simp only [hostOps0_7]
  after_results_simp
  all_goals (try simp only [TRef.toBuf, TRef.ofBuf, cast_eq])
  all_goals (try simp only [at6_arg11 m c, at6_arg10 m c, at6_arg9 m c, at6_arg8 m c, at6_v67 m c, at6_v65 m c, at6_arg3 m c, at6_c_13 m c])
  all_goals rfl

/-- The buffers after the host operations `hostOps0_8`. -/
def W8 : Valuation τ sig (Elt Ideal) := after hostOps0_8 (W7 m c)

theorem at8_arg11 : W8 m c (Proc.devRef .tc main_arg11) = A11 m c := by
  unfold W8
  simp only [hostOps0_8]
  after_results_simp
  exact at7_arg11 m c

theorem at8_arg10 : W8 m c (Proc.devRef .tc main_arg10) = A10 m c := by
  unfold W8
  simp only [hostOps0_8]
  after_results_simp
  exact at7_arg10 m c

theorem at8_arg9 : W8 m c (Proc.devRef .tc main_arg9) = A9 m c := by
  unfold W8
  simp only [hostOps0_8]
  after_results_simp
  exact at7_arg9 m c

theorem at8_arg8 : W8 m c (Proc.devRef .tc main_arg8) = A8 m c := by
  unfold W8
  simp only [hostOps0_8]
  after_results_simp
  exact at7_arg8 m c

theorem at8_v67 : W8 m c (Proc.devRef .tc main_v67) = val_main_v67 (F := Ideal) (A3 m c) := by
  unfold W8
  simp only [hostOps0_8]
  after_results_simp
  exact at7_v67 m c

theorem at8_v75 : W8 m c (Proc.devRef .tc main_v75) = val_main_v75 (F := Ideal) (A1 m c) (A2 m c) (A3 m c) (A4 m c) (A5 m c) (A6 m c) (A7 m c) := by
  unfold W8
  simp only [hostOps0_8]
  after_results_simp
  all_goals (try simp only [at7_arg11 m c, at7_arg10 m c, at7_arg9 m c, at7_arg8 m c, at7_v67 m c, at7_v65 m c, at7_v68 m c])
  all_goals rfl

theorem at8_v76 : W8 m c (Proc.devRef .tc main_v76) = val_main_v76 (F := Ideal) (A3 m c) := by
  unfold W8
  simp only [hostOps0_8]
  after_results_simp
  all_goals (try simp only [at7_arg11 m c, at7_arg10 m c, at7_arg9 m c, at7_arg8 m c, at7_v67 m c, at7_v65 m c, at7_v68 m c])
  all_goals rfl

theorem at8_cst_16 : W8 m c (Proc.devRef .tc main_cst_16) = constant (F := Ideal) S_ .f32 0x00000000#32 := by
  unfold W8
  simp only [hostOps0_8]
  after_results_simp
  all_goals (try simp only [at7_arg11 m c, at7_arg10 m c, at7_arg9 m c, at7_arg8 m c, at7_v67 m c, at7_v65 m c, at7_v68 m c])
  all_goals rfl

/-- The buffers after the host operations `hostOps0_9`. -/
def W9 : Valuation τ sig (Elt Ideal) := after hostOps0_9 (W8 m c)

theorem at9_v77 : W9 m c (Proc.devRef .tc main_v77) = masked (A1 m c) (A2 m c) (A3 m c) (A4 m c) (A5 m c) (A6 m c) (A7 m c) := by
  unfold W9
  simp only [hostOps0_9]
  after_results_simp
  all_goals (try simp only [TRef.toBuf, TRef.ofBuf, cast_eq])
  all_goals (try simp only [at8_arg11 m c, at8_arg10 m c, at8_arg9 m c, at8_arg8 m c, at8_v67 m c, at8_v75 m c, at8_v76 m c, at8_cst_16 m c])
  all_goals rfl

theorem at9_arg11 : W9 m c (Proc.devRef .tc main_arg11) = A11 m c := by
  unfold W9
  simp only [hostOps0_9]
  after_results_simp
  exact at8_arg11 m c

theorem at9_arg10 : W9 m c (Proc.devRef .tc main_arg10) = A10 m c := by
  unfold W9
  simp only [hostOps0_9]
  after_results_simp
  exact at8_arg10 m c

theorem at9_arg9 : W9 m c (Proc.devRef .tc main_arg9) = A9 m c := by
  unfold W9
  simp only [hostOps0_9]
  after_results_simp
  exact at8_arg9 m c

theorem at9_arg8 : W9 m c (Proc.devRef .tc main_arg8) = A8 m c := by
  unfold W9
  simp only [hostOps0_9]
  after_results_simp
  exact at8_arg8 m c

theorem at9_v67 : W9 m c (Proc.devRef .tc main_v67) = val_main_v67 (F := Ideal) (A3 m c) := by
  unfold W9
  simp only [hostOps0_9]
  after_results_simp
  exact at8_v67 m c

/-- The buffers after the host operations `hostOps0_10`. -/
def W10 : Valuation τ sig (Elt Ideal) := after hostOps0_10 (W9 m c)

theorem at10_v77 : W10 m c (Proc.devRef .tc main_v77) = masked (A1 m c) (A2 m c) (A3 m c) (A4 m c) (A5 m c) (A6 m c) (A7 m c) := by
  unfold W10
  simp only [hostOps0_10]
  after_results_simp
  exact at9_v77 m c

theorem at10_v83 : W10 m c (Proc.devRef .tc main_v83) = val_main_v85 (F := Ideal) (A3 m c) := by
  unfold W10
  simp only [hostOps0_10]
  after_results_simp
  all_goals (try simp only [at9_v77 m c, at9_arg11 m c, at9_arg10 m c, at9_arg9 m c, at9_arg8 m c, at9_v67 m c])
  all_goals rfl

theorem at10_v85 : W10 m c (Proc.devRef .tc main_v85) = truncf (F := Ideal) .bf16 (extractStridedSlice S768x448 ![0, 0] (A8 m c) slices_S896x448_S768x448_0_0) bitsLt_bf16_f32 := by
  unfold W10
  simp only [hostOps0_10]
  after_results_simp
  all_goals (try simp only [at9_v77 m c, at9_arg11 m c, at9_arg10 m c, at9_arg9 m c, at9_arg8 m c, at9_v67 m c])
  all_goals rfl

theorem at10_v87 : W10 m c (Proc.devRef .tc main_v87) = truncf (F := Ideal) .bf16 (extractStridedSlice S128x448 ![768, 0] (A8 m c) slices_S896x448_S128x448_768_0) bitsLt_bf16_f32 := by
  unfold W10
  simp only [hostOps0_10]
  after_results_simp
  all_goals (try simp only [at9_v77 m c, at9_arg11 m c, at9_arg10 m c, at9_arg9 m c, at9_arg8 m c, at9_v67 m c])
  all_goals rfl

theorem at10_v88 : W10 m c (Proc.devRef .tc main_v88) = shapeCast S1x448 (A9 m c) shapeCasts_S448_S1x448 := by
  unfold W10
  simp only [hostOps0_10]
  after_results_simp
  all_goals (try simp only [at9_v77 m c, at9_arg11 m c, at9_arg10 m c, at9_arg9 m c, at9_arg8 m c, at9_v67 m c])
  all_goals rfl

theorem at10_v89 : W10 m c (Proc.devRef .tc main_v89) = truncf (F := Ideal) .bf16 (A10 m c) bitsLt_bf16_f32 := by
  unfold W10
  simp only [hostOps0_10]
  after_results_simp
  all_goals (try simp only [at9_v77 m c, at9_arg11 m c, at9_arg10 m c, at9_arg9 m c, at9_arg8 m c, at9_v67 m c])
  all_goals rfl

theorem at10_v90 : W10 m c (Proc.devRef .tc main_v90) = shapeCast S1x1 (A11 m c) shapeCasts_S1_S1x1 := by
  unfold W10
  simp only [hostOps0_10]
  after_results_simp
  all_goals (try simp only [at9_v77 m c, at9_arg11 m c, at9_arg10 m c, at9_arg9 m c, at9_arg8 m c, at9_v67 m c])
  all_goals rfl

/-- The region finds the buffers as the last stretch leaves them. -/
theorem V_eq (b : Ref sig .tc) : V m c b = W10 m c (Proc.devRef .tc b) := by
  dsimp only [V]
  simp only [List.flatten_cons, List.flatten_nil, List.append_nil, StableHlo.after_append]
  rfl

theorem V_g : V m c main_v77 = masked (A1 m c) (A2 m c) (A3 m c) (A4 m c) (A5 m c) (A6 m c) (A7 m c) :=
  (V_eq m c main_v77).trans (at10_v77 m c)

theorem V_cnt : V m c main_v83 = val_main_v85 (F := Ideal) (A3 m c) :=
  (V_eq m c main_v83).trans (at10_v83 m c)

theorem V_wb : V m c main_v85 = truncf (F := Ideal) .bf16 (extractStridedSlice S768x448 ![0, 0] (A8 m c) slices_S896x448_S768x448_0_0) bitsLt_bf16_f32 :=
  (V_eq m c main_v85).trans (at10_v85 m c)

theorem V_wg : V m c main_v87 = truncf (F := Ideal) .bf16 (extractStridedSlice S128x448 ![768, 0] (A8 m c) slices_S896x448_S128x448_768_0) bitsLt_bf16_f32 :=
  (V_eq m c main_v87).trans (at10_v87 m c)

theorem V_b1 : V m c main_v88 = shapeCast S1x448 (A9 m c) shapeCasts_S448_S1x448 :=
  (V_eq m c main_v88).trans (at10_v88 m c)

theorem V_w2 : V m c main_v89 = truncf (F := Ideal) .bf16 (A10 m c) bitsLt_bf16_f32 :=
  (V_eq m c main_v89).trans (at10_v89 m c)

theorem V_b2 : V m c main_v90 = shapeCast S1x1 (A11 m c) shapeCasts_S1_S1x1 :=
  (V_eq m c main_v90).trans (at10_v90 m c)

end Cert.KernelIdeal.Host

end
-- ==== Proof.Spec.lean ====
/-
  The function both programs compute, row by row, on the extended reals.

  For one article (one row b of the batch): the embeddings of its entities — already masked, a padded slot
  holding zeros — are summed over the twenty slots and divided by the entity count, column by column; the
  768 text features and these 128 graph features go through a dense layer of 448 units (two weight blocks, one
  per group of features, and a bias), a rectifier, a second dense layer of one unit and its bias, and the logistic
  function. Everything is stated over plain functions of coordinates, so that either program's arrays can be put in.
-/
import Idealize.ShloMosaic.PureOps.Ideal
import Idealize.ShloMosaic.Lib.ValueIdx

noncomputable section

namespace Cert.Spec

open Idealize.ShloMosaic Idealize.ShloMosaic.ValueIdx

/-- The mean of the masked entity embeddings of one article, feature `j`: the sum over the twenty slots divided by
    the count. -/
def meanRow (g : Fin 20 → Fin 128 → EReal) (cnt : EReal) (j : Fin 128) : EReal :=
  Ideal.div (∑ e : Fin 20, g e j) cnt

/-- Unit `k` of the hidden layer: text features against their weight block, plus graph features against theirs,
    plus the bias, rectified. -/
def hidden (bert : Fin 768 → EReal) (mean : Fin 128 → EReal) (wb : Fin 768 → Fin 448 → EReal)
    (wg : Fin 128 → Fin 448 → EReal) (b1 : Fin 448 → EReal) (k : Fin 448) : EReal :=
  max (((∑ q : Fin 768, bert q * wb q k) + (∑ q : Fin 128, mean q * wg q k)) + b1 k) 0

/-- One article's score: the hidden layer against the output weights, plus the output bias, through the logistic
    function. -/
def rowOut (bert : Fin 768 → EReal) (mean : Fin 128 → EReal) (wb : Fin 768 → Fin 448 → EReal)
    (wg : Fin 128 → Fin 448 → EReal) (b1 : Fin 448 → EReal) (w2 : Fin 448 → EReal) (b2 : EReal) : EReal :=
  Ideal.logistic ((∑ k : Fin 448, hidden bert mean wb wg b1 k * w2 k) + b2)

/-- The score of article `b` from the eight arrays the fused stage reads: masked entity embeddings `[4096,20,128]`,
    counts `[4096,1]`, text features `[4096,768]`, the two weight blocks, the hidden bias as a row, the output
    weights as a column, the output bias as a `[1,1]` array. -/
def specRow (g : (⟨3, ![4096, 20, 128]⟩ : Shape).Idx → EReal) (cnt : (⟨2, ![4096, 1]⟩ : Shape).Idx → EReal)
    (bert : (⟨2, ![4096, 768]⟩ : Shape).Idx → EReal) (wb : (⟨2, ![768, 448]⟩ : Shape).Idx → EReal)
    (wg : (⟨2, ![128, 448]⟩ : Shape).Idx → EReal) (b1 : (⟨2, ![1, 448]⟩ : Shape).Idx → EReal)
    (w2 : (⟨2, ![448, 1]⟩ : Shape).Idx → EReal) (b2 : (⟨2, ![1, 1]⟩ : Shape).Idx → EReal) (b : Fin 4096) : EReal :=
  rowOut (fun q => bert (ix2 b q))
    (meanRow (fun e j => g (ix3 b e j)) (cnt (ix2 b (0 : Fin 1))))
    (fun q k => wb (ix2 q k)) (fun q k => wg (ix2 q k)) (fun k => b1 (ix2 (0 : Fin 1) k))
    (fun k => w2 (ix2 k (0 : Fin 1))) (b2 (ix2 (0 : Fin 1) (0 : Fin 1)))

/-- The whole result column `[4096,1]`. -/
def spec (g : (⟨3, ![4096, 20, 128]⟩ : Shape).Idx → EReal) (cnt : (⟨2, ![4096, 1]⟩ : Shape).Idx → EReal)
    (bert : (⟨2, ![4096, 768]⟩ : Shape).Idx → EReal) (wb : (⟨2, ![768, 448]⟩ : Shape).Idx → EReal)
    (wg : (⟨2, ![128, 448]⟩ : Shape).Idx → EReal) (b1 : (⟨2, ![1, 448]⟩ : Shape).Idx → EReal)
    (w2 : (⟨2, ![448, 1]⟩ : Shape).Idx → EReal) (b2 : (⟨2, ![1, 1]⟩ : Shape).Idx → EReal) :
    (⟨2, ![4096, 1]⟩ : Shape).Idx → EReal :=
  fun i => specRow g cnt bert wb wg b1 w2 b2 ⟨(i 0).val, (i 0).isLt⟩

end Cert.Spec

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.KernelBody.lean ====
/-
  The fused stage's arithmetic, one output row at a time.
-/
import proofs.«124949_j71605694759285_2_alg».proof.Proof.Gen.KernelIdeal.Skeleton
import proofs.«124949_j71605694759285_2_alg».proof.Proof.Spec
import proofs.«124949_j71605694759285_2_alg».proof.Proof.LibKeepdims
import proofs.«124949_j71605694759285_2_alg».proof.Proof.LibRank3
import proofs.«124949_j71605694759285_2_alg».proof.Proof.LibPlainDot
import proofs.«124949_j71605694759285_2_alg».proof.Proof.LibRowBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The mean of one article's masked entity embeddings, feature `j`: the block summed over its middle axis and divided
    by the count column carried along the row. -/
theorem mean_at (x0 : Vec Ideal S512x20x128 .f32) (x1 : Vec Ideal S512x1 .f32) (r : Fin 512) (j : Fin 128) :
    divf (F := Ideal) (multiReduction (F := Ideal) FKind.add [1] S512x128 (φ := .f32) x0 0x00000000#32 reduces_S512x20x128_S512x128 (.inl rfl) rfl)
        (broadcastTo S512x128 x1 broadcasts_S512x1_S512x128) (ix2 r j)
      = Cert.Spec.meanRow (fun e j => x0 (ix3 r e j)) (x1 (ix2 r (0 : Fin 1))) j := by
  rw [divf_apply]
  refine (congrArg₂ Ideal.div (Cert.LibRank3.sum_mid3 (φ := .f32) x0 _ _ _ _ r j)
    (Cert.LibKeepdims.broadcastTo_a1_ab_apply x1 _ r j)).trans ?_
  rfl

/-- Row `r` of what the body stores, from the eight blocks it loads: the score of that row's article. -/
theorem pay_row (x0 : Vec Ideal S512x20x128 .f32) (x1 : Vec Ideal S512x1 .f32) (x2 : Vec Ideal S512x768 .f32)
    (x3 : Vec Ideal S768x448 .bf16) (x4 : Vec Ideal S128x448 .bf16) (x5 : Vec Ideal S1x448 .f32)
    (x6 : Vec Ideal S448x1 .bf16) (x7 : Vec Ideal S1x1 .f32) (r : Fin 512) (u : Fin 1) :
    k0_pay1 (F := Ideal) x0 x1 x2 x3 x4 x5 x6 x7 (ix2 r u)
      = Cert.Spec.rowOut (fun q => x2 (ix2 r q))
          (Cert.Spec.meanRow (fun e j => x0 (ix3 r e j)) (x1 (ix2 r (0 : Fin 1))))
          (fun q k => x3 (ix2 q k)) (fun q k => x4 (ix2 q k)) (fun k => x5 (ix2 (0 : Fin 1) k))
          (fun k => x6 (ix2 k (0 : Fin 1))) (x7 (ix2 (0 : Fin 1) (0 : Fin 1))) := by
  have hu : u = 0 := Subsingleton.elim _ _
  subst hu
  simp only [k0_pay1, shapeCast_self]
  unfold Cert.Spec.rowOut
  refine congrArg Ideal.logistic (congrArg₂ (· + ·) ?_ ?_)
  · -- the output layer: the rectified hidden row against the output weights
    refine (Cert.PlainDot.matmul_zero_ix2 dot_S512x448_S448x1_S512x1_1_0_0_1_n_n rfl none _ _ r 0).trans
      (Finset.sum_congr rfl fun k _ => congrArg₂ (· * ·) ?_ rfl)
    refine (truncf_apply (φ := .f32) (ψ := .bf16) _ bitsLt_bf16_f32 (ix2 r k)).trans ((maximumf_apply _ _ _).trans ?_)
    unfold Cert.Spec.hidden
    refine congrArg₂ max (congrArg₂ (· + ·) (congrArg₂ (· + ·) ?_ ?_) ?_) Ideal.ofBits_zero_f32
    · -- text features against their weight block
      exact Cert.PlainDot.matmul_zero_ix2 dot_S512x768_S768x448_S512x448_1_0_0_1_n_n rfl none _ _ r k
    · -- graph features (the mean embedding) against theirs
      refine (Cert.PlainDot.matmul_zero_ix2 dot_S512x128_S128x448_S512x448_1_0_0_1_n_n rfl none _ _ r k).trans
        (Finset.sum_congr rfl fun q _ => congrArg₂ (· * ·) ?_ rfl)
      exact (truncf_apply (φ := .f32) (ψ := .bf16) _ bitsLt_bf16_f32 (ix2 r q)).trans (mean_at x0 x1 r q)
    · -- the hidden bias, a row carried down the rows
      exact Cert.LibRowBroadcast.broadcastTo_1b_ab_apply x5 _ r k
  · -- the output bias, a single entry carried down the rows
    exact Cert.LibRowBroadcast.broadcastTo_1b_ab_apply x7 _ r 0

end Cert.KernelIdeal.Body

end
-- ==== Proof.KernelValue.lean ====
/-
  From blocks to the whole column: what the fused stage writes back at each of its eight grid points is the block of
  512 rows of one whole-array function of the eight arrays it reads, and the eight blocks cover the result.
-/
import proofs.«124949_j71605694759285_2_alg».proof.Proof.Gen.KernelIdeal.Value
import proofs.«124949_j71605694759285_2_alg».proof.Proof.KernelBody
import proofs.«124949_j71605694759285_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result column as one function of the eight arrays the stage reads, as it finds them. -/
abbrev G (c : Dev nD) : S4096x1.Idx → EReal :=
  Cert.Spec.spec (V m c main_v77) (V m c main_v83) (V m c main_arg0) (V m c main_v85) (V m c main_v87)
    (V m c main_v88) (V m c main_v89) (V m c main_v90)

/-- The printed index maps over the grid of eight points: the three row-blocked inputs and the output sit at block
    `t` along the rows, every other axis and every whole-array input at block `0`. -/
theorem block_indices : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Block `t` of the masked entity embeddings is rows `512 t … 512 t + 511` of the array, every slot and feature. -/
theorem entities_block (c : Dev nD) (t : Fin cfg0.N) (r : Fin 512) (e : Fin 20) (j : Fin 128) (b : Fin 4096)
    (hb : b.val = 512 * t.val + r.val) :
    (iblk m c 0 t : Vec Ideal S512x20x128 .f32) (ix3 r e j) = V m c main_v77 (ix3 b e j) := by
  obtain ⟨e00, e01, e02, e10, e11, e20, e21, e30, e31, e40, e41, e50, e51, e60, e61, e70, e71, e80, e81⟩ := block_indices t
  unfold iblk
  rw [View.read_apply]
  show V m c main_v77 _ = V m c main_v77 _
  congr 1
  funext a
  apply Fin.ext
  match a with
  | ⟨0, _⟩ => show win0_0.index t 0 * 512 + 1 * r.val = b.val; rw [e00, hb]; omega
  | ⟨1, _⟩ => show win0_0.index t 1 * 20 + 1 * e.val = e.val; rw [e01]; omega
  | ⟨2, _⟩ => show win0_0.index t 2 * 128 + 1 * j.val = j.val; rw [e02]; omega

/-- Block `t` of the count column is rows `512 t … 512 t + 511` of the array. -/
theorem counts_block (c : Dev nD) (t : Fin cfg0.N) (r : Fin 512) (q : Fin 1) (b : Fin 4096)
    (hb : b.val = 512 * t.val + r.val) :
    (iblk m c 1 t : Vec Ideal S512x1 .f32) (ix2 r q) = V m c main_v83 (ix2 b q) := by
  obtain ⟨e00, e01, e02, e10, e11, e20, e21, e30, e31, e40, e41, e50, e51, e60, e61, e70, e71, e80, e81⟩ := block_indices t
  unfold iblk
  rw [View.read_apply]
  show V m c main_v83 _ = V m c main_v83 _
  congr 1
  funext a
  apply Fin.ext
  match a with
  | ⟨0, _⟩ => show win0_1.index t 0 * 512 + 1 * r.val = b.val; rw [e10, hb]; omega
  | ⟨1, _⟩ => show win0_1.index t 1 * 1 + 1 * q.val = q.val; rw [e11]; omega

/-- Block `t` of the text features is rows `512 t … 512 t + 511` of the array, every feature. -/
theorem text_block (c : Dev nD) (t : Fin cfg0.N) (r : Fin 512) (q : Fin 768) (b : Fin 4096)
    (hb : b.val = 512 * t.val + r.val) :
    (iblk m c 2 t : Vec Ideal S512x768 .f32) (ix2 r q) = V m c main_arg0 (ix2 b q) := by
  obtain ⟨e00, e01, e02, e10, e11, e20, e21, e30, e31, e40, e41, e50, e51, e60, e61, e70, e71, e80, e81⟩ := block_indices t
  unfold iblk
  rw [View.read_apply]
  show V m c main_arg0 _ = V m c main_arg0 _
  congr 1
  funext a
  apply Fin.ext
  match a with
  | ⟨0, _⟩ => show win0_2.index t 0 * 512 + 1 * r.val = b.val; rw [e20, hb]; omega
  | ⟨1, _⟩ => show win0_2.index t 1 * 768 + 1 * q.val = q.val; rw [e21]; omega

/-- The text-feature weight block is read whole at every point. -/
theorem textWeights_block (c : Dev nD) (t : Fin cfg0.N) (p : Fin 768) (q : Fin 448) :
    (iblk m c 3 t : Vec Ideal S768x448 .bf16) (ix2 p q) = V m c main_v85 (ix2 p q) := by
  obtain ⟨e00, e01, e02, e10, e11, e20, e21, e30, e31, e40, e41, e50, e51, e60, e61, e70, e71, e80, e81⟩ := block_indices t
  unfold iblk
  rw [View.read_apply]
  show V m c main_v85 _ = V m c main_v85 _
  congr 1
  funext a
  apply Fin.ext
  match a with
  | ⟨0, _⟩ => show win0_3.index t 0 * 768 + 1 * p.val = p.val; rw [e30]; omega
  | ⟨1, _⟩ => show win0_3.index t 1 * 448 + 1 * q.val = q.val; rw [e31]; omega

/-- The graph-feature weight block is read whole at every point. -/
theorem graphWeights_block (c : Dev nD) (t : Fin cfg0.N) (p : Fin 128) (q : Fin 448) :
    (iblk m c 4 t : Vec Ideal S128x448 .bf16) (ix2 p q) = V m c main_v87 (ix2 p q) := by
  obtain ⟨e00, e01, e02, e10, e11, e20, e21, e30, e31, e40, e41, e50, e51, e60, e61, e70, e71, e80, e81⟩ := block_indices t
  unfold iblk
  rw [View.read_apply]
  show V m c main_v87 _ = V m c main_v87 _
  congr 1
  funext a
  apply Fin.ext
  match a with
  | ⟨0, _⟩ => show win0_4.index t 0 * 128 + 1 * p.val = p.val; rw [e40]; omega
  | ⟨1, _⟩ => show win0_4.index t 1 * 448 + 1 * q.val = q.val; rw [e41]; omega

/-- The hidden bias row is read whole at every point. -/
theorem hiddenBias_block (c : Dev nD) (t : Fin cfg0.N) (p : Fin 1) (q : Fin 448) :
    (iblk m c 5 t : Vec Ideal S1x448 .f32) (ix2 p q) = V m c main_v88 (ix2 p q) := by
  obtain ⟨e00, e01, e02, e10, e11, e20, e21, e30, e31, e40, e41, e50, e51, e60, e61, e70, e71, e80, e81⟩ := block_indices t
  unfold iblk
  rw [View.read_apply]
  show V m c main_v88 _ = V m c main_v88 _
  congr 1
  funext a
  apply Fin.ext
  match a with
  | ⟨0, _⟩ => show win0_5.index t 0 * 1 + 1 * p.val = p.val; rw [e50]; omega
  | ⟨1, _⟩ => show win0_5.index t 1 * 448 + 1 * q.val = q.val; rw [e51]; omega

/-- The output weight column is read whole at every point. -/
theorem outWeights_block (c : Dev nD) (t : Fin cfg0.N) (p : Fin 448) (q : Fin 1) :
    (iblk m c 6 t : Vec Ideal S448x1 .bf16) (ix2 p q) = V m c main_v89 (ix2 p q) := by
  obtain ⟨e00, e01, e02, e10, e11, e20, e21, e30, e31, e40, e41, e50, e51, e60, e61, e70, e71, e80, e81⟩ := block_indices t
  unfold iblk
  rw [View.read_apply]
  show V m c main_v89 _ = V m c main_v89 _
  congr 1
  funext a
  apply Fin.ext
  match a with
  | ⟨0, _⟩ => show win0_6.index t 0 * 448 + 1 * p.val = p.val; rw [e60]; omega
  | ⟨1, _⟩ => show win0_6.index t 1 * 1 + 1 * q.val = q.val; rw [e61]; omega

/-- The output bias is read whole at every point. -/
theorem outBias_block (c : Dev nD) (t : Fin cfg0.N) (p : Fin 1) (q : Fin 1) :
    (iblk m c 7 t : Vec Ideal S1x1 .f32) (ix2 p q) = V m c main_v90 (ix2 p q) := by
  obtain ⟨e00, e01, e02, e10, e11, e20, e21, e30, e31, e40, e41, e50, e51, e60, e61, e70, e71, e80, e81⟩ := block_indices t
  unfold iblk
  rw [View.read_apply]
  show V m c main_v90 _ = V m c main_v90 _
  congr 1
  funext a
  apply Fin.ext
  match a with
  | ⟨0, _⟩ => show win0_7.index t 0 * 1 + 1 * p.val = p.val; rw [e70]; omega
  | ⟨1, _⟩ => show win0_7.index t 1 * 1 + 1 * q.val = q.val; rw [e71]; omega

theorem zero_offsets2 : (![0, 0] : Fin 2 → Nat) = fun _ => 0 := funext fun a => by fin_cases a <;> rfl

theorem zero_offsets3 : (![0, 0, 0] : Fin 3 → Nat) = fun _ => 0 := funext fun a => by fin_cases a <;> rfl

/-- Row `r` of the blocks at point `t` is article `512 t + r` of the whole arrays: the row's score from the blocks is the
    specification's score of that article. -/
theorem row_is_article (c : Dev nD) (t : Fin cfg0.N) (r : Fin 512) (b : Fin 4096) (hb : b.val = 512 * t.val + r.val) :
    Cert.Spec.rowOut (fun q => (iblk m c 2 t : Vec Ideal S512x768 .f32) (ix2 r q))
        (Cert.Spec.meanRow (fun e j => (iblk m c 0 t : Vec Ideal S512x20x128 .f32) (ix3 r e j))
          ((iblk m c 1 t : Vec Ideal S512x1 .f32) (ix2 r (0 : Fin 1))))
        (fun q k => (iblk m c 3 t : Vec Ideal S768x448 .bf16) (ix2 q k))
        (fun q k => (iblk m c 4 t : Vec Ideal S128x448 .bf16) (ix2 q k))
        (fun k => (iblk m c 5 t : Vec Ideal S1x448 .f32) (ix2 (0 : Fin 1) k))
        (fun k => (iblk m c 6 t : Vec Ideal S448x1 .bf16) (ix2 k (0 : Fin 1)))
        ((iblk m c 7 t : Vec Ideal S1x1 .f32) (ix2 (0 : Fin 1) (0 : Fin 1)))
      = Cert.Spec.specRow (V m c main_v77) (V m c main_v83) (V m c main_arg0) (V m c main_v85) (V m c main_v87)
          (V m c main_v88) (V m c main_v89) (V m c main_v90) b := by
  unfold Cert.Spec.specRow
  have h0 : (fun e j => (iblk m c 0 t : Vec Ideal S512x20x128 .f32) (ix3 r e j)) = fun e j => V m c main_v77 (ix3 b e j) :=
    funext fun e => funext fun j => entities_block m c t r e j b hb
  have h1 : (iblk m c 1 t : Vec Ideal S512x1 .f32) (ix2 r (0 : Fin 1)) = V m c main_v83 (ix2 b (0 : Fin 1)) := counts_block m c t r 0 b hb
  have h2 : (fun q => (iblk m c 2 t : Vec Ideal S512x768 .f32) (ix2 r q)) = fun q => V m c main_arg0 (ix2 b q) :=
    funext fun q => text_block m c t r q b hb
  have h3 : (fun q k => (iblk m c 3 t : Vec Ideal S768x448 .bf16) (ix2 q k)) = fun q k => V m c main_v85 (ix2 q k) :=
    funext fun q => funext fun k => textWeights_block m c t q k
  have h4 : (fun q k => (iblk m c 4 t : Vec Ideal S128x448 .bf16) (ix2 q k)) = fun q k => V m c main_v87 (ix2 q k) :=
    funext fun q => funext fun k => graphWeights_block m c t q k
  have h5 : (fun k => (iblk m c 5 t : Vec Ideal S1x448 .f32) (ix2 (0 : Fin 1) k)) = fun k => V m c main_v88 (ix2 (0 : Fin 1) k) :=
    funext fun k => hiddenBias_block m c t 0 k
  have h6 : (fun k => (iblk m c 6 t : Vec Ideal S448x1 .bf16) (ix2 k (0 : Fin 1))) = fun k => V m c main_v89 (ix2 k (0 : Fin 1)) :=
    funext fun k => outWeights_block m c t k 0
  have h7 : (iblk m c 7 t : Vec Ideal S1x1 .f32) (ix2 (0 : Fin 1) (0 : Fin 1)) = V m c main_v90 (ix2 (0 : Fin 1) (0 : Fin 1)) := outBias_block m c t 0 0
  rw [h0, h1, h2, h3, h4, h5, h6, h7]

/-- What point `t` writes back is block `t` of the result column `G`. -/
theorem writes_block (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero zero_offsets2]
  simp only [View.ld_unit_zero (S := S512x20x128) zero_offsets3, View.ld_unit_zero (S := S512x1) zero_offsets2, View.ld_unit_zero (S := S512x768) zero_offsets2,
    View.ld_unit_zero (S := S768x448) zero_offsets2, View.ld_unit_zero (S := S128x448) zero_offsets2, View.ld_unit_zero (S := S1x448) zero_offsets2,
    View.ld_unit_zero (S := S448x1) zero_offsets2, View.ld_unit_zero (S := S1x1) zero_offsets2]
  obtain ⟨e00, e01, e02, e10, e11, e20, e21, e30, e31, e40, e41, e50, e51, e60, e61, e70, e71, e80, e81⟩ := block_indices t
  funext j
  obtain ⟨r, u, rfl⟩ : ∃ (r : Fin 512) (u : Fin 1), j = ix2 r u := ⟨j 0, j 1, eq_ix2 j⟩
  show k0_pay1 (F := Ideal) (iblk m c 0 t) (iblk m c 1 t) (iblk m c 2 t) (iblk m c 3 t) (iblk m c 4 t) (iblk m c 5 t)
      (iblk m c 6 t) (iblk m c 7 t) (ix2 r u) = G m c (((cfg0.win 8).blk t).view.emb (ix2 r u))
  refine (Cert.KernelIdeal.Body.pay_row (iblk m c 0 t) (iblk m c 1 t) (iblk m c 2 t) (iblk m c 3 t) (iblk m c 4 t) (iblk m c 5 t)
    (iblk m c 6 t) (iblk m c 7 t) r u).trans ?_
  refine row_is_article m c t r ⟨_, ((((cfg0.win 8).blk t).view.emb (ix2 r u)) 0).isLt⟩ ?_
  show win0_8.index t 0 * 512 + 1 * r.val = 512 * t.val + r.val
  rw [e80]; omega

/-- An index of the result column is in point `t`'s block iff each coordinate is in the block's range on its axis. -/
theorem mem_block (t : Fin cfg0.N) (i : S4096x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v91).slice (win0_8.rect t)).set ↔ _
  rw [View.set_slice_whole, Rect.mem_set_unit]
  exact Iff.rfl

/-- Every row of the result column lies in the block of the point `row / 512`, and every point writes back. -/
theorem blocks_cover (i : S4096x1.Idx) :
    ∃ t : Fin cfg0.N, (cfg0.win 8).flush t = true ∧ i ∈ ((cfg0.win 8).blk t).view.set := by
  have hN : cfg0.N = 8 := N_0
  have hi0 : (i 0).val < 4096 := (i 0).isLt
  have hi1 : (i 1).val < 1 := (i 1).isLt
  obtain ⟨t, ht⟩ : ∃ t : Fin cfg0.N, t.val = (i 0).val / 512 := ⟨⟨(i 0).val / 512, by omega⟩, rfl⟩
  obtain ⟨e00, e01, e02, e10, e11, e20, e21, e30, e31, e40, e41, e50, e51, e60, e61, e70, e71, e80, e81⟩ := block_indices t
  refine ⟨t, flush0_8 t, ?_⟩
  rw [mem_block]
  intro a
  match a with
  | ⟨0, _⟩ => show win0_8.index t 0 * 512 ≤ (i 0).val ∧ (i 0).val < win0_8.index t 0 * 512 + 512; rw [e80, ht]; omega
  | ⟨1, _⟩ => show win0_8.index t 1 * 1 ≤ (i 1).val ∧ (i 1).val < win0_8.index t 1 * 1 + 1; rw [e81]; omega

/-- After the run the result array is that function. -/
theorem final8 (c : Dev nD) : (dats m 0 c).arrAt 8 cfg0.N = G m c := by
  exact (dats m 0 c).arrAt_eq_of_cover 8 (G m c) (fun t _ => writes_block m c t) blocks_cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v91) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final8 m c), (h c).2⟩) (Cert.KernelIdeal.Value.run_blocks m ρ)

end Cert.KernelIdeal.Whole

end
-- ==== Proof.RefValue.lean ====
/-
  The reference's result, one row at a time, from its stages read at an index.
-/
import proofs.«124949_j71605694759285_2_alg».proof.Proof.RefReadP
import proofs.«124949_j71605694759285_2_alg».proof.Proof.Spec
import Idealize.ShloMosaic.Lib.IdealHost

noncomputable section

namespace Cert.ReferenceIdeal.RefValue

open Cert.ReferenceIdeal Cert.ReferenceIdeal.ReadP Idealize.ShloMosaic Idealize.ShloMosaic.ValueIdx

/-- Row `q` of the text-feature block of the first dense layer's weights `[896,448]`. -/
def lo (q : Fin 768) : Fin 896 := ⟨q.val, by omega⟩
/-- Row `q` of the graph-feature block of the first dense layer's weights `[896,448]`. -/
def hi (q : Fin 128) : Fin 896 := ⟨768 + q.val, by omega⟩

/-! ## A sum over the 896 joined columns is the sum over the first 768 plus the sum over the last 128 -/

theorem sum_lo_hi (f : Fin 896 → EReal) :
    ∑ q : Fin 896, f q = (∑ q : Fin 768, f (lo q)) + ∑ q : Fin 128, f (hi q) := by
  have h := Fin.sum_univ_add (a := 768) (b := 128) f
  refine h.trans ?_
  refine congrArg₂ (· + ·) (Finset.sum_congr rfl fun q _ => ?_) (Finset.sum_congr rfl fun q _ => ?_)
  · exact congrArg f (Fin.ext rfl)
  · exact congrArg f (Fin.ext rfl)

/-! ## The stages' index functions at explicit coordinates -/

theorem idx86 (b : Fin 4096) (j : Fin 128) (e : Fin 20) : idx_main_v86 (ix2 b j) e = ix3 b e j :=
  funext fun a => Fin.ext (by match a with | ⟨0, _⟩ => rfl | ⟨1, _⟩ => rfl | ⟨2, _⟩ => rfl)

theorem idx87 (b : Fin 4096) (j : Fin 128) : idx_main_v87 (ix2 b j) = ix2 b (0 : Fin 1) :=
  funext fun a => Fin.ext (by match a with | ⟨0, _⟩ => rfl | ⟨1, _⟩ => rfl)

theorem lidx90 (b : Fin 4096) (k : Fin 448) (q : Fin 896) : lidx_main_v90 (ix2 b k) q = ix2 b q :=
  funext fun a => Fin.ext (by match a with | ⟨0, _⟩ => rfl | ⟨1, _⟩ => rfl)

theorem ridx90 (b : Fin 4096) (k : Fin 448) (q : Fin 896) : ridx_main_v90 (ix2 b k) q = ix2 q k :=
  funext fun a => Fin.ext (by match a with | ⟨0, _⟩ => rfl | ⟨1, _⟩ => rfl)

theorem idx91_92 (b : Fin 4096) (k : Fin 448) : idx_main_v91 (idx_main_v92 (ix2 b k)) = ix1 k :=
  funext fun a => Fin.ext (by match a with | ⟨0, _⟩ => rfl)

theorem lidx95 (b : Fin 4096) (k : Fin 448) : lidx_main_v95 (ix2 b (0 : Fin 1)) k = ix2 b k :=
  funext fun a => Fin.ext (by match a with | ⟨0, _⟩ => rfl | ⟨1, _⟩ => rfl)

theorem ridx95 (b : Fin 4096) (k : Fin 448) : ridx_main_v95 (ix2 b (0 : Fin 1)) k = ix2 k (0 : Fin 1) :=
  funext fun a => Fin.ext (by match a with | ⟨0, _⟩ => rfl | ⟨1, _⟩ => rfl)

theorem idx96_97 (b : Fin 4096) : idx_main_v96 (idx_main_v97 (ix2 b (0 : Fin 1))) = ix1 (0 : Fin 1) :=
  funext fun a => Fin.ext (by match a with | ⟨0, _⟩ => rfl)

section Stages

variable (x0 : (⟨S4096x768, .f32⟩ : BufTy).Contents (Elt Ideal)) (x1 : (⟨S50000x128, .f32⟩ : BufTy).Contents (Elt Ideal))
  (x2 : (⟨S2x800000, .i32⟩ : BufTy).Contents (Elt Ideal)) (x3 : (⟨S4096x20, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S896x448, .f32⟩ : BufTy).Contents (Elt Ideal)) (x9 : (⟨S448, .f32⟩ : BufTy).Contents (Elt Ideal))
  (x10 : (⟨S448x1, .f32⟩ : BufTy).Contents (Elt Ideal)) (x11 : (⟨S1, .f32⟩ : BufTy).Contents (Elt Ideal))

/-! ## The joined array `[4096,896]`: the text features in columns 0..767, the mean in columns 768..895 -/

/-- A column of the first block of the joined array is the text feature. -/
theorem v89_lo (b : Fin 4096) (q : Fin 768) :
    val_main_v89 (F := Ideal) x0 x1 x2 x3 x4 x5 x6 x7 (ix2 b (lo q)) = x0 (ix2 b q) := by
  unfold val_main_v89
  exact concatenate_pair_apply_left (t := S4096x896) (s₁ := S4096x768) (s₂ := S4096x128) _ _ _ _ (ix2 b (lo q)) rfl (ix2 b q)
    (fun c => match c with | ⟨0, _⟩ => rfl | ⟨1, _⟩ => rfl)

/-- A column of the second block of the joined array is the mean's. -/
theorem v89_hi (b : Fin 4096) (q : Fin 128) :
    val_main_v89 (F := Ideal) x0 x1 x2 x3 x4 x5 x6 x7 (ix2 b (hi q))
      = val_main_v88 (F := Ideal) x1 x2 x3 x4 x5 x6 x7 (ix2 b q) := by
  unfold val_main_v89
  exact concatenate_pair_apply_right (t := S4096x896) (s₁ := S4096x768) (s₂ := S4096x128) _ _ _ _ (ix2 b (hi q)) rfl rfl (ix2 b q)
    (fun c => match c with | ⟨0, _⟩ => fun _ => rfl | ⟨1, _⟩ => fun h => (h rfl).elim)
    (by show q.val + 768 = 768 + q.val; exact Nat.add_comm _ _)

/-- The mean of the masked entity embeddings at `(b, j)`: the sum over the twenty slots, from zero, divided by the
    count. -/
theorem v88_mean (b : Fin 4096) (j : Fin 128) :
    val_main_v88 (F := Ideal) x1 x2 x3 x4 x5 x6 x7 (ix2 b j)
      = Cert.Spec.meanRow (fun e j => val_main_v79 (F := Ideal) x1 x2 x3 x4 x5 x6 x7 (ix3 b e j))
          (val_main_v85 (F := Ideal) x3 (ix2 b (0 : Fin 1))) j := by
  rw [val_main_v88_apply, val_main_v86_apply, val_main_v87_apply, val_main_cst_18_apply, idx87]
  simp only [idx86]
  rw [Ideal.ofBits_def, Ideal.ofBits_zero_f32, zero_add]
  rfl

/-- Unit `k` of the hidden layer for article `b`. -/
theorem v94_hidden (b : Fin 4096) (k : Fin 448) :
    val_main_v94 (F := Ideal) x0 x1 x2 x3 x4 x5 x6 x7 x8 x9 (ix2 b k)
      = Cert.Spec.hidden (fun q => x0 (ix2 b q))
          (Cert.Spec.meanRow (fun e j => val_main_v79 (F := Ideal) x1 x2 x3 x4 x5 x6 x7 (ix3 b e j))
            (val_main_v85 (F := Ideal) x3 (ix2 b (0 : Fin 1))))
          (fun q k => x8 (ix2 (lo q) k)) (fun q k => x8 (ix2 (hi q) k)) (fun k => x9 (ix1 k)) k := by
  rw [val_main_v94_apply, val_main_v93_apply, val_main_v90_apply, val_main_v92_apply, val_main_v91_apply,
    val_main_call4_v0_apply, val_main_call4_cst_apply, idx91_92, sum_lo_hi]
  simp only [lidx90, ridx90, v89_lo, v89_hi, v88_mean]
  rw [Ideal.ofBits_def, Ideal.ofBits_zero_f32]
  rfl

end Stages

/-- Row `b` of the reference's result: the score of article `b`, with the masked entity embeddings (the gathered rows
    times the mask as a number) and the counts left as the reference's own stages. -/
theorem ref_row (x0 : (⟨S4096x768, .f32⟩ : BufTy).Contents (Elt Ideal)) (x1 : (⟨S50000x128, .f32⟩ : BufTy).Contents (Elt Ideal))
    (x2 : (⟨S2x800000, .i32⟩ : BufTy).Contents (Elt Ideal)) (x3 : (⟨S4096x20, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S896x448, .f32⟩ : BufTy).Contents (Elt Ideal)) (x9 : (⟨S448, .f32⟩ : BufTy).Contents (Elt Ideal))
    (x10 : (⟨S448x1, .f32⟩ : BufTy).Contents (Elt Ideal)) (x11 : (⟨S1, .f32⟩ : BufTy).Contents (Elt Ideal))
    (b : Fin 4096) (u : Fin 1) :
    val_main_v104 (F := Ideal) x0 x1 x2 x3 x4 x5 x6 x7 x8 x9 x10 x11 (ix2 b u)
      = Cert.Spec.rowOut (fun q => x0 (ix2 b q))
          (Cert.Spec.meanRow (fun e j => val_main_v79 (F := Ideal) x1 x2 x3 x4 x5 x6 x7 (ix3 b e j))
            (val_main_v85 (F := Ideal) x3 (ix2 b (0 : Fin 1))))
          (fun q k => x8 (ix2 (lo q) k)) (fun q k => x8 (ix2 (hi q) k)) (fun k => x9 (ix1 k))
          (fun k => x10 (ix2 k (0 : Fin 1))) (x11 (ix1 (0 : Fin 1))) := by
  obtain rfl : u = 0 := Subsingleton.elim u 0
  -- the logits: the hidden layer against the output weights, plus the output bias
  have hlogit : val_main_v98 (F := Ideal) x0 x1 x2 x3 x4 x5 x6 x7 x8 x9 x10 x11 (ix2 b (0 : Fin 1))
      = (∑ k : Fin 448, Cert.Spec.hidden (fun q => x0 (ix2 b q))
          (Cert.Spec.meanRow (fun e j => val_main_v79 (F := Ideal) x1 x2 x3 x4 x5 x6 x7 (ix3 b e j))
            (val_main_v85 (F := Ideal) x3 (ix2 b (0 : Fin 1))))
          (fun q k => x8 (ix2 (lo q) k)) (fun q k => x8 (ix2 (hi q) k)) (fun k => x9 (ix1 k)) k
            * x10 (ix2 k (0 : Fin 1))) + x11 (ix1 (0 : Fin 1)) := by
    rw [val_main_v98_apply, val_main_v95_apply, val_main_v97_apply, val_main_v96_apply, idx96_97]
    simp only [lidx95, ridx95, v94_hidden]
    rfl
  -- one over one plus the exponential of the negated logits is the logistic function of the logits
  rw [val_main_v104_apply, val_main_v103_apply, val_main_v102_apply, val_main_v101_apply, val_main_v100_apply,
    val_main_v99_apply, val_main_cst_20_apply, val_main_cst_19_apply, hlogit, Ideal.ofBits_def,
    Ideal.ofBits_one_f32]
  rfl

end Cert.ReferenceIdeal.RefValue

end
-- ==== Proof.Bridge.lean ====
/-
  The two programs meet: the arrays the fused stage reads are, entry by entry, what the reference's stages hold, so
  the kernel's result column is the reference's final stage.

  The only arithmetic here is the mask: the kernel sets a padded slot's gathered row to zero by a select, the
  reference multiplies the row by the mask as a number (one or zero); on the extended reals x · 1 = x and x · 0 = 0
  for every x, infinite or not.
-/
import proofs.«124949_j71605694759285_2_alg».proof.Proof.KernelStagesB
import proofs.«124949_j71605694759285_2_alg».proof.Proof.KernelValue
import proofs.«124949_j71605694759285_2_alg».proof.Proof.RefValue
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.ReferenceIdeal.RefValue (lo hi)

/-- A select between `x` and zero under a one-bit mask is `x` times the mask read as a number. -/
theorem mask_law (c : BitVec 1) (x : EReal) :
    Scalar.select c x (Ideal.ofBits .f32 0x00000000#32) = x * (((c.toNat : ℕ) : ℝ) : EReal) := by
  by_cases h : c = 1#1
  · subst h
    rw [select_one]
    simp
  · have h0 := eq_zero_of_ne_one h
    subst h0
    rw [select_zero, Ideal.ofBits_zero_f32]
    simp

/-- The masked embeddings the kernel reads are the reference's product of the gathered rows with the mask. -/
theorem masked_apply (a1 : (⟨S50000x128, .f32⟩ : BufTy).Contents (Elt Ideal)) (a2 : (⟨S2x800000, .i32⟩ : BufTy).Contents (Elt Ideal))
    (a3 : (⟨S4096x20, .i32⟩ : BufTy).Contents (Elt Ideal)) (a4 : (⟨S128x128, .f32⟩ : BufTy).Contents (Elt Ideal))
    (a5 : (⟨S128, .f32⟩ : BufTy).Contents (Elt Ideal)) (a6 : (⟨S128x128, .f32⟩ : BufTy).Contents (Elt Ideal))
    (a7 : (⟨S128, .f32⟩ : BufTy).Contents (Elt Ideal)) (i : S4096x20x128.Idx) :
    Cert.KernelIdeal.Host.masked a1 a2 a3 a4 a5 a6 a7 i
      = Cert.ReferenceIdeal.ReadP.val_main_v79 (F := Ideal) a1 a2 a3 a4 a5 a6 a7 i := by
  unfold Cert.KernelIdeal.Host.masked
  rw [select_apply, Cert.ReferenceIdeal.ReadP.val_main_v79_apply, Cert.ReferenceIdeal.ReadP.val_main_v78_apply,
    Cert.ReferenceIdeal.ReadP.val_main_v77_apply]
  have hb : broadcastInDim S4096x20x128 ![0, 1, 2] bcast_S4096x20x1_S4096x20x128_0_1_2 (Cert.ReferenceIdeal.ReadP.val_main_v76 (F := Ideal) a3) i
      = Cert.ReferenceIdeal.ReadP.val_main_v76 (F := Ideal) a3 (Cert.ReferenceIdeal.ReadP.idx_main_v78 i) :=
    broadcastInDim_apply _ bcast_S4096x20x1_S4096x20x128_0_1_2 _ i (Cert.ReferenceIdeal.ReadP.idx_main_v78 i) (fun a => match a with
      | ⟨0, _⟩ => by show (i 0).val = if (4096 : Nat) = 1 then 0 else (i 0).val; rw [if_neg (by decide)]
      | ⟨1, _⟩ => by show (i 1).val = if (20 : Nat) = 1 then 0 else (i 1).val; rw [if_neg (by decide)]
      | ⟨2, _⟩ => by show 0 = if (1 : Nat) = 1 then 0 else (i 2).val; rw [if_pos rfl])
  have hz : broadcastInDim S4096x20x128 ![] bcast_S_S4096x20x128 (constant (F := Ideal) S_ .f32 0x00000000#32) i
      = Ideal.ofBits .f32 0x00000000#32 :=
    (broadcastInDim_apply _ bcast_S_S4096x20x128 _ i ix0 (fun a => a.elim0)).trans rfl
  rw [hb, hz]
  exact mask_law _ _

/-- The text-feature weight block the kernel reads is rows 0 … 767 of the reference's weight matrix. -/
theorem wb_apply (a8 : (⟨Cert.ReferenceIdeal.S896x448, .f32⟩ : BufTy).Contents (Elt Ideal)) (q : Fin 768) (k : Fin 448) :
    truncf (F := Ideal) .bf16 (extractStridedSlice S768x448 ![0, 0] a8 slices_S896x448_S768x448_0_0) bitsLt_bf16_f32 (ix2 q k)
      = a8 (ix2 (lo q) k) :=
  extractStridedSlice_apply ![0, 0] a8 slices_S896x448_S768x448_0_0 (ix2 q k) (ix2 (lo q) k) (fun a => match a with
    | ⟨0, _⟩ => by show q.val = 0 + q.val; omega
    | ⟨1, _⟩ => by show k.val = 0 + k.val; omega)

/-- The graph-feature weight block the kernel reads is rows 768 … 895 of the reference's weight matrix. -/
theorem wg_apply (a8 : (⟨Cert.ReferenceIdeal.S896x448, .f32⟩ : BufTy).Contents (Elt Ideal)) (q : Fin 128) (k : Fin 448) :
    truncf (F := Ideal) .bf16 (extractStridedSlice S128x448 ![768, 0] a8 slices_S896x448_S128x448_768_0) bitsLt_bf16_f32 (ix2 q k)
      = a8 (ix2 (hi q) k) :=
  extractStridedSlice_apply ![768, 0] a8 slices_S896x448_S128x448_768_0 (ix2 q k) (ix2 (hi q) k) (fun a => match a with
    | ⟨0, _⟩ => by show 768 + q.val = 768 + q.val; rfl
    | ⟨1, _⟩ => by show k.val = 0 + k.val; omega)

/-- The hidden bias as a one-row matrix, read at column `k`. -/
theorem b1_apply (a9 : (⟨Cert.ReferenceIdeal.S448, .f32⟩ : BufTy).Contents (Elt Ideal)) (k : Fin 448) :
    shapeCast S1x448 a9 shapeCasts_S448_S1x448 (ix2 (0 : Fin 1) k) = a9 (ix1 k) :=
  shapeCast_apply a9 shapeCasts_S448_S1x448 (ix2 (0 : Fin 1) k) (ix1 k) (by
    rw [Shape.rowMajor_val_one, Shape.rowMajor_val_two]
    show k.val = 0 * 448 + k.val
    omega)

/-- The output weights: the same column at the ideal values. -/
theorem w2_apply (a10 : (⟨Cert.ReferenceIdeal.S448x1, .f32⟩ : BufTy).Contents (Elt Ideal)) (k : Fin 448) :
    truncf (F := Ideal) .bf16 a10 bitsLt_bf16_f32 (ix2 k (0 : Fin 1)) = a10 (ix2 k (0 : Fin 1)) := rfl

/-- The output bias as a one-by-one matrix. -/
theorem b2_apply (a11 : (⟨Cert.ReferenceIdeal.S1, .f32⟩ : BufTy).Contents (Elt Ideal)) :
    shapeCast S1x1 a11 shapeCasts_S1_S1x1 (ix2 (0 : Fin 1) (0 : Fin 1)) = a11 (ix1 (0 : Fin 1)) :=
  shapeCast_apply a11 shapeCasts_S1_S1x1 (ix2 (0 : Fin 1) (0 : Fin 1)) (ix1 (0 : Fin 1)) (by
    rw [Shape.rowMajor_val_one, Shape.rowMajor_val_two]
    show 0 = 0 * 1 + 0
    rfl)

open Cert.KernelIdeal.Host in
/-- The kernel's result column, as a function of the arrays the fused stage reads, is the reference's final stage of the
    program's arguments. -/
theorem kernel_eq_ref (m : (ℓ : Loc nD τ sig) → Buf (Elt Ideal) ℓ) (c : Dev nD) :
    Cert.KernelIdeal.Whole.G m c
      = Cert.ReferenceIdeal.ReadP.val_main_v104 (F := Ideal) (m ((c : Thread nD τ).loc main_arg0)) (A1 m c) (A2 m c) (A3 m c) (A4 m c)
          (A5 m c) (A6 m c) (A7 m c) (A8 m c) (A9 m c) (A10 m c) (A11 m c) := by
  funext i
  obtain ⟨b, u, rfl⟩ : ∃ (b : Fin 4096) (u : Fin 1), i = ix2 b u := ⟨i 0, i 1, eq_ix2 i⟩
  rw [Cert.ReferenceIdeal.RefValue.ref_row]
  show Cert.Spec.specRow (V m c main_v77) (V m c main_v83) (V m c main_arg0) (V m c main_v85) (V m c main_v87)
    (V m c main_v88) (V m c main_v89) (V m c main_v90) b = _
  rw [V_g m c, V_cnt m c, V_main_arg0 m c, V_wb m c, V_wg m c, V_b1 m c, V_w2 m c, V_b2 m c]
  unfold Cert.Spec.specRow
  simp only [masked_apply, wb_apply, wg_apply, w2_apply]
  have e1 : (fun k : Fin 448 => shapeCast S1x448 (A9 m c) shapeCasts_S448_S1x448 (ix2 (0 : Fin 1) k)) = fun k => A9 m c (ix1 k) :=
    funext fun k => b1_apply (A9 m c) k
  have e2 : shapeCast S1x1 (A11 m c) shapeCasts_S1_S1x1 (ix2 (0 : Fin 1) (0 : Fin 1)) = A11 m c (ix1 (0 : Fin 1)) :=
    b2_apply (A11 m c)
  rw [e1, e2]

end Cert.Bridge

end
-- ==== Proof.lean ====
/-
  The certificate's claims.

  Both programs compute, for each of 4096 articles, the logistic score of a two-layer network applied to the article's
  768 text features and to the mean of the graph embeddings of its entities (up to twenty, padded slots masked out);
  the graph embeddings come from two graph-convolution layers over 50000 nodes, which both programs compute by the
  same host operations. The kernel fuses the masked mean and the network into one stage over blocks of 512 articles:
  it sums the masked rows over the slots and divides by the count, multiplies the text features and the mean by the two
  blocks of the first layer's weights separately and adds the products, where the reference concatenates features and
  multiplies once; on the extended reals a sum over 896 terms is the sum over the first 768 plus the sum over the last
  128. The kernel zeroes a padded slot by a select, the reference by multiplying with the mask as a number: x · 1 = x and
  x · 0 = 0 for every extended real x. Format changes are the identity on the extended reals, and the logistic function
  is by definition 1 / (1 + exp (−x)), which is how the reference spells it. No law used needs the inputs finite.

  The frames of the two kernels are the generated ones; the reference's frame and value are its run read stage by
  stage (RefRun.lean); the kernel's value is the generated block-by-block run read as one function of the arrays the
  fused stage finds (KernelBody.lean, KernelValue.lean), those arrays read off the host operations before the stage
  (KernelStagesA.lean, KernelStagesB.lean), and the two values are joined entry by entry (Bridge.lean).
-/
import proofs.«124949_j71605694759285_2_alg».proof.Defs
import proofs.«124949_j71605694759285_2_alg».proof.Proof.Gen.Kernel
import proofs.«124949_j71605694759285_2_alg».proof.Proof.Gen.Kernel.Skeleton
import proofs.«124949_j71605694759285_2_alg».proof.Proof.Gen.Kernel.Launch
import proofs.«124949_j71605694759285_2_alg».proof.Proof.Gen.Kernel.Points
import proofs.«124949_j71605694759285_2_alg».proof.Proof.Gen.Kernel.Frame
import proofs.«124949_j71605694759285_2_alg».proof.Proof.Gen.KernelIdeal
import proofs.«124949_j71605694759285_2_alg».proof.Proof.Gen.KernelIdeal.Skeleton
import proofs.«124949_j71605694759285_2_alg».proof.Proof.Gen.KernelIdeal.Launch
import proofs.«124949_j71605694759285_2_alg».proof.Proof.Gen.KernelIdeal.Points
import proofs.«124949_j71605694759285_2_alg».proof.Proof.Gen.KernelIdeal.Frame
import proofs.«124949_j71605694759285_2_alg».proof.Proof.Gen.ReferenceIdeal
import proofs.«124949_j71605694759285_2_alg».proof.Proof.Gen.Pre_finite_inputs
import proofs.«124949_j71605694759285_2_alg».proof.Proof.Gen.KernelIdeal.Value
import proofs.«124949_j71605694759285_2_alg».proof.Proof.RefRun
import proofs.«124949_j71605694759285_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Staged.run m ρ)

/-- The idealization rewrote no operation. -/
theorem preserves : Cert.preserves_Kernel_KernelIdeal := trivial

/-- From memories agreeing on the arguments both programs end with the same result column: the kernel's is one function
    of the arrays its fused stage reads, and that function of those arrays is the reference's final stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Staged.run m' ρ')
  obtain ⟨h0, h1, h2, h3, h4, h5, h6, h7, h8, h9, h10, h11⟩ := hagree c
  show _ = Cert.KernelIdeal.Whole.G m c
  rw [Cert.Bridge.kernel_eq_ref m c]
  dsimp only [Cert.ReferenceIdeal.Staged.B0, Cert.ReferenceIdeal.Staged.B1, Cert.ReferenceIdeal.Staged.B2, Cert.ReferenceIdeal.Staged.B3,
    Cert.ReferenceIdeal.Staged.B4, Cert.ReferenceIdeal.Staged.B5, Cert.ReferenceIdeal.Staged.B6, Cert.ReferenceIdeal.Staged.B7,
    Cert.ReferenceIdeal.Staged.B8, Cert.ReferenceIdeal.Staged.B9, Cert.ReferenceIdeal.Staged.B10, Cert.ReferenceIdeal.Staged.B11]
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
